-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S3200000x1 : Shape := ⟨2, ![3200000, 1]⟩
abbrev S2x3200000 : Shape := ⟨2, ![2, 3200000]⟩
abbrev S100000 : Shape := ⟨1, ![100000]⟩
abbrev S2x32 : Shape := ⟨2, ![2, 32]⟩
abbrev S32 : Shape := ⟨1, ![32]⟩
abbrev S1x32 : Shape := ⟨2, ![1, 32]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32x1 : Shape := ⟨2, ![32, 1]⟩
abbrev S1 : Shape := ⟨1, ![1]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S32 .f32) (main_arg14 : FVec F S32x1 .f32) (main_arg15 : FVec F S1 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x1 .f32 := Host.absf main_arg14
  let main_cst_22 : FVec F S_ .f32 := constant S_ .f32 0x7F800000#32
  let main_v60 : FVec F S32x1 .f32 := broadcastInDim S32x1 ![] bcast_S_S32x1 main_cst_22
  let main_v61 : IVec S32x1 1 := cmpf .olt main_v59 main_v60
  let main_c_23 : IVec S_ 1 := constantI S_ 1 1#1
  let main_v62 : IVec S_ 1 := (fun x v => Host.reduce IntOp.andi x v reducesTo_S32x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S64 .f32) (main_arg10 : FVec F S64x64 .f32) (main_arg11 : FVec F S64 .f32) (main_arg12 : FVec F S64x32 .f32) (main_arg13 : FVec F S32 .f32) (main_arg14 : FVec F S32x1 .f32) (main_arg15 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_arg14 main_arg15 main_v48 main_v49 main_v50

def fn_part1 {F : FTy → Type} [FloatOps F] (main_arg6 : FVec F S1x32 .f32) (main_arg7 : FVec F S32 .f32) (main_arg8 : FVec F S32x64 .f32) (main_arg9 : FVec F S64 .f32) (main_arg10 : FVec F S64x64 .f32) (main_arg11 : FVec F S64 .f32) (main_arg12 : FVec F S64x32 .f32) (main_arg13 : FVec F S32 .f32) (main_arg14 : FVec F S32x1 .f32) (main_arg15 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S1x32 .f32 := Host.absf main_arg6
  let main_cst_6 : FVec F S_ .f32 := constant S_ .f32 0x7F800000#32
  let main_v20 : FVec F S1x32 .f32 := broadcastInDim S1x32 ![] bcast_S_S1x32 main_cst_6
  let main_v21 : IVec S1x32 1 := cmpf .olt main_v19 main_v20
  let main_c_7 : IVec S_ 1 := constantI S_ 1 1#1
  let main_v22 : IVec S_ 1 := (fun x v => Host.reduce IntOp.andi x v reducesTo_S1x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg8
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x2 .f32) (main_arg1 : FVec F S3200000x1 .f32) (main_arg2 : IVec S2x3200000 32) (main_arg3 : IVec S100000 32) (main_arg4 : FVec F S2x32 .f32) (main_arg5 : FVec F S32 .f32) (main_arg6 : FVec F S1x32 .f32) (main_arg7 : FVec F S32 .f32) (main_arg8 : FVec F S32x64 .f32) (main_arg9 : FVec F S64 .f32) (main_arg10 : FVec F S64x64 .f32) (main_arg11 : FVec F S64 .f32) (main_arg12 : FVec F S64x32 .f32) (main_arg13 : FVec F S32 .f32) (main_arg14 : FVec F S32x1 .f32) (main_arg15 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S3200000x1 .f32 := Host.absf main_arg1
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S2x32 .f32 := Host.absf main_arg4
  let main_cst_2 : FVec F S_ .f32 := constant S_ .f32 0x7F800000#32
  let main_v10 : FVec F S2x32 .f32 := broadcastInDim S2x32 ![] bcast_S_S2x32 main_cst_2
  let main_v11 : IVec S2x32 1 := cmpf .olt main_v9 main_v10
  let main_c_3 : IVec S_ 1 := constantI S_ 1 1#1
  let main_v12 : IVec S_ 1 := (fun x v => Host.reduce IntOp.andi x v reducesTo_S2x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x2 : Shape := ⟨2, ![100000, 2]⟩
abbrev S3200000x1 : Shape := ⟨2, ![3200000, 1]⟩
abbrev S2x3200000 : Shape := ⟨2, ![2, 3200000]⟩
abbrev S100000 : Shape := ⟨1, ![100000]⟩
abbrev S2x32 : Shape := ⟨2, ![2, 32]⟩
abbrev S32 : Shape := ⟨1, ![32]⟩
abbrev S1x32 : Shape := ⟨2, ![1, 32]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32x1 : Shape := ⟨2, ![32, 1]⟩
abbrev S1 : Shape := ⟨1, ![1]⟩
abbrev S100000x64 : Shape := ⟨2, ![100000, 64]⟩
abbrev S10000x2 : Shape := ⟨2, ![10000, 2]⟩
abbrev S10000x64 : Shape := ⟨2, ![10000, 64]⟩
abbrev S10000x32 : Shape := ⟨2, ![10000, 32]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S1x1 : Shape := ⟨2, ![1, 1]⟩
abbrev S1024x32 : Shape := ⟨2, ![1024, 32]⟩

abbrev nBuf : Space → Nat
  | .hbm => 120
  | .vmem => 19
  | .smem => 0
  | _ => 0

abbrev bufTy : (tb : Table) → Fin (tcTables nBuf tb) → BufTy
  | .hbm, ⟨0, _⟩ => ⟨S100000x2, .f32⟩
  | .hbm, ⟨1, _⟩ => ⟨S3200000x1, .f32⟩
  | .hbm, ⟨2, _⟩ => ⟨S2x3200000, .i32⟩
  | .hbm, ⟨3, _⟩ => ⟨S100000, .i32⟩
  | .hbm, ⟨4, _⟩ => ⟨S2x32, .f32⟩
  | .hbm, ⟨5, _⟩ => ⟨S32, .f32⟩
  | .hbm, ⟨6, _⟩ => ⟨S1x32, .f32⟩
  | .hbm, ⟨7, _⟩ => ⟨S32, .f32⟩
  | .hbm, ⟨8, _⟩ => ⟨S32x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x1, .f32⟩
  | .hbm, ⟨15, _⟩ => ⟨S1, .f32⟩
  | .hbm, ⟨16, _⟩ => ⟨S1x32, .f32⟩
  | .hbm, ⟨17, _⟩ => ⟨S100000x64, .f32⟩
  | .hbm, ⟨18, _⟩ => ⟨S100000, .i32⟩
  | .hbm, ⟨19, _⟩ => ⟨S1x3200000, .i32⟩
  | .hbm, ⟨20, _⟩ => ⟨S3200000, .i32⟩
  | .hbm, ⟨21, _⟩ => ⟨S3300000, .i32⟩
  | .hbm, ⟨22, _⟩ => ⟨S1x3200000, .i32⟩
  | .hbm, ⟨23, _⟩ => ⟨S3200000, .i32⟩
  | .hbm, ⟨24, _⟩ => ⟨S3300000, .i32⟩
  | .hbm, ⟨25, _⟩ => ⟨S_, .f32⟩
  | .hbm, ⟨26, _⟩ => ⟨S3300000, .f32⟩
  | .hbm, ⟨27, _⟩ => ⟨S_, .f32⟩
  | .hbm, ⟨28, _⟩ => ⟨S100000, .f32⟩
  | .hbm, ⟨29, _⟩ => ⟨S3300000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .i1⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000, .f32⟩
  | .hbm, ⟨38, _⟩ => ⟨S_, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000, .f32⟩
  | .hbm, ⟨60, _⟩ => ⟨S3300000, .f32⟩
  | .hbm, ⟨61, _⟩ => ⟨S_, .i32⟩
  | .hbm, ⟨62, _⟩ => ⟨S3300000, .i32⟩
  | .hbm, ⟨63, _⟩ => ⟨S3300000, .i1⟩
  | .hbm, ⟨64, _⟩ => ⟨S_, .i32⟩
  | .hbm, ⟨65, _⟩ => ⟨S3300000, .i32⟩
  | .hbm, ⟨66, _⟩ => ⟨S3300000, .i32⟩
  | .hbm, ⟨67, _⟩ => ⟨S3300000, .i32⟩
  | .hbm, ⟨68, _⟩ => ⟨S3300000x1, .i32⟩
  | .hbm, ⟨69, _⟩ => ⟨S3300000x64, .f32⟩
  | .hbm, ⟨70, _⟩ => ⟨S3300000x1, .f32⟩
  | .hbm, ⟨71, _⟩ => ⟨S3300000x64, .f32⟩
  | .hbm, ⟨72, _⟩ => ⟨S3300000x64, .f32⟩
  | .hbm, ⟨73, _⟩ => ⟨S_, .f32⟩
  | .hbm, ⟨74, _⟩ => ⟨S100000x64, .f32⟩
  | .hbm, ⟨75, _⟩ => ⟨S3300000x1, .i32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000x64, .f32⟩
  | .hbm, ⟨88, _⟩ => ⟨S3300000x1, .f32⟩
  | .hbm, ⟨89, _⟩ => ⟨S3300000x64, .f32⟩
  | .hbm, ⟨90, _⟩ => ⟨S3300000x64, .f32⟩
  | .hbm, ⟨91, _⟩ => ⟨S_, .f32⟩
  | .hbm, ⟨92, _⟩ => ⟨S100000x64, .f32⟩
  | .hbm, ⟨93, _⟩ => ⟨S3300000x1, .i32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S1024x64, .f32⟩
  | .hbm, ⟨103, _⟩ => ⟨S100000x1, .i32⟩
  | .hbm, ⟨104, _⟩ => ⟨S1024x64, .f32⟩
  | .hbm, ⟨105, _⟩ => ⟨S_, .f32⟩
  | .hbm, ⟨106, _⟩ => ⟨S100000, .f32⟩
  | .hbm, ⟨107, _⟩ => ⟨S_, .f32⟩
  | .hbm, ⟨108, _⟩ => ⟨S1024, .f32⟩
  | .hbm, ⟨109, _⟩ => ⟨S100000x1, .i32⟩
  | .hbm, ⟨110, _⟩ => ⟨S1024, .f32⟩
  | .hbm, ⟨111, _⟩ => ⟨S_, .f32⟩
  | .hbm, ⟨112, _⟩ => ⟨S1024, .f32⟩
  | .hbm, ⟨113, _⟩ => ⟨S1024, .f32⟩
  | .hbm, ⟨114, _⟩ => ⟨S1024x1, .f32⟩
  | .hbm, ⟨115, _⟩ => ⟨S1024x64, .f32⟩
  | .hbm, ⟨116, _⟩ => ⟨S1024x64, .f32⟩
  | .hbm, ⟨117, _⟩ => ⟨S1x32, .f32⟩
  | .hbm, ⟨118, _⟩ => ⟨S1x1, .f32⟩
  | .hbm, ⟨119, _⟩ => ⟨S1024x1, .f32⟩
  | .local _ .vmem, ⟨0, _⟩ => ⟨S10000x2, .f32⟩
  | .local _ .vmem, ⟨1, _⟩ => ⟨S10000x2, .f32⟩
  | .local _ .vmem, ⟨2, _⟩ => ⟨S2x32, .f32⟩
  | .local _ .vmem, ⟨3, _⟩ => ⟨S1x32, .f32⟩
  | .local _ .vmem, ⟨4, _⟩ => ⟨S32x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S1x64, .f32⟩
  | .local _ .vmem, ⟨10, _⟩ => ⟨S64x64, .f32⟩
  | .local _ .vmem, ⟨11, _⟩ => ⟨S10000x64, .f32⟩
  | .local _ .vmem, ⟨12, _⟩ => ⟨S10000x64, .f32⟩
  | .local _ .vmem, ⟨13, _⟩ => ⟨S1024x64, .f32⟩
  | .local _ .vmem, ⟨14, _⟩ => ⟨S64x32, .f32⟩
  | .local _ .vmem, ⟨15, _⟩ => ⟨S1x32, .f32⟩
  | .local _ .vmem, ⟨16, _⟩ => ⟨S32x1, .f32⟩
  | .local _ .vmem, ⟨17, _⟩ => ⟨S1x1, .f32⟩
  | .local _ .vmem, ⟨18, _⟩ => ⟨S1024x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_c_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_10 : Ref sig .tc := ⟨.hbm, 79, rfl⟩
abbrev main_v49 : Ref sig .tc := ⟨.hbm, 80, rfl⟩
abbrev main_v50 : Ref sig .tc := ⟨.hbm, 81, rfl⟩
abbrev main_c_11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call1_cst : Ref sig .tc := ⟨.hbm, 98, rfl⟩
abbrev main_call1_v0 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_14 : Ref sig .tc := ⟨.hbm, 105, rfl⟩
abbrev main_v69 : Ref sig .tc := ⟨.hbm, 106, rfl⟩
abbrev main_cst_15 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_16 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  shapeCasts_S32_S1x32 : S32.ShapeCasts S1x32
  inb_S10000x2_S10000x2_0_0 : ∀ a, (![0, 0] : Fin 2 → Nat) a + S10000x2.size a ≤ S10000x2.size a
  h_S10000x2 : 0 < S10000x2.numel
  bitsLt_bf16_f32 : FTy.bits .bf16 < FTy.bits .f32
  inb_S2x32_S2x32_0_0 : ∀ a, (![0, 0] : Fin 2 → Nat) a + S2x32.size a ≤ S2x32.size a
  h_S2x32 : 0 < S2x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x32_S64x32_0_0 : ∀ a, (![0, 0] : Fin 2 → Nat) a + S64x32.size a ≤ S64x32.size a
  h_S64x32 : 0 < S64x32.numel
  broadcasts_S1x32_S1024x32 : S1x32.Broadcasts S1024x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S10000x2_S2x32_S10000x32_1_0_0_1_n_n_wf : DotDims.WF S10000x2 S2x32 S10000x32 [1] [0] [0] [1] [] []
  dot_S10000x32_S32x64_S10000x64_1_0_0_1_n_n_wf : DotDims.WF S10000x32 S32x64 S10000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x32_S1024x32_1_0_0_1_n_n_wf : DotDims.WF S1024x64 S64x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x32.size a ≤ S2x32.size a
  hwx0_1 : ∀ i : grid0.Coords, EltTy.bits .f32 = 32 ∨ (Rect.block (s := S2x32) S2x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S1024x64.size a
  hwx2_0 : ∀ i : grid2.Coords, EltTy.bits .f32 = 32 ∨ (Rect.block (s := S1024x64) S1024x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x1.size a ≤ S32x1.size a
  hwx2_3 : ∀ i : grid2.Coords, EltTy.bits .f32 = 32 ∨ (Rect.block (s := S32x1) S32x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x1.size a ≤ S1024x1.size a
  hwx2_5 : ∀ i : grid2.Coords, EltTy.bits .f32 = 32 ∨ (Rect.block (s := S1024x1) S1024x1.size (cc2_transform_5 i) (hinb2_5 i)).WholeWords (EltTy.packing .f32)

variable [Facts₀]

def dot_S10000x2_S2x32_S10000x32_1_0_0_1_n_n : DotDims S10000x2 S2x32 S10000x32 where
  lhsContracting := [1]
  rhsContracting := [0]
  lhsNonContracting := [0]
  rhsNonContracting := [1]
  lhsBatch := []
  rhsBatch := []
  wf := dot_S10000x2_S2x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v77) S1024x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v78) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S32x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v80) S1024x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x2 : Shape := ⟨2, ![100000, 2]⟩
abbrev S3200000x1 : Shape := ⟨2, ![3200000, 1]⟩
abbrev S2x3200000 : Shape := ⟨2, ![2, 3200000]⟩
abbrev S100000 : Shape := ⟨1, ![100000]⟩
abbrev S2x32 : Shape := ⟨2, ![2, 32]⟩
abbrev S32 : Shape := ⟨1, ![32]⟩
abbrev S1x32 : Shape := ⟨2, ![1, 32]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32x1 : Shape := ⟨2, ![32, 1]⟩
abbrev S1 : Shape := ⟨1, ![1]⟩
abbrev S100000x32 : Shape := ⟨2, ![100000, 32]⟩
abbrev S_ : Shape := ⟨0, ![]⟩
abbrev S3200000x32 : Shape := ⟨2, ![3200000, 32]⟩
abbrev S100000x64 : Shape := ⟨2, ![100000, 64]⟩
abbrev S1x3200000 : Shape := ⟨2, ![1, 3200000]⟩
abbrev S3200000 : Shape := ⟨1, ![3200000]⟩
abbrev S3300000 : Shape := ⟨1, ![3300000]⟩
abbrev S3300000x1 : Shape := ⟨2, ![3300000, 1]⟩
abbrev S3300000x64 : Shape := ⟨2, ![3300000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S1024x32 : Shape := ⟨2, ![1024, 32]⟩
abbrev S1x1 : Shape := ⟨2, ![1, 1]⟩

abbrev nBuf : Space → Nat
  | .hbm => 189
  | .vmem => 0
  | .smem => 0
  | _ => 0

abbrev hbmTy0_0 (i : Nat) : BufTy := match i % 128 with
  | 0 => ⟨S100000x2, .f32⟩
  | 1 => ⟨S3200000x1, .f32⟩
  | 2 => ⟨S2x3200000, .i32⟩
  | 3 => ⟨S100000, .i32⟩
  | 4 => ⟨S2x32, .f32⟩
  | 5 => ⟨S32, .f32⟩
  | 6 => ⟨S1x32, .f32⟩
  | 7 => ⟨S32, .f32⟩
  | 8 => ⟨S32x64, .f32⟩
  | 9 => ⟨S64, .f32⟩
  | 10 => ⟨S64x64, .f32⟩
  | 11 => ⟨S64, .f32⟩
  | 12 => ⟨S64x32, .f32⟩
  | 13 => ⟨S32, .f32⟩
  | 14 => ⟨S32x1, .f32⟩
  | 15 => ⟨S1, .f32⟩
  | 16 => ⟨S100000x32, .f32⟩
  | 17 => ⟨S1x32, .f32⟩
  | 18 => ⟨S100000x32, .f32⟩
  | 19 => ⟨S100000x32, .f32⟩
  | 20 => ⟨S_, .f32⟩
  | 21 => ⟨S100000x32, .f32⟩
  | 22 => ⟨S100000x32, .f32⟩
  | 23 => ⟨S3200000x32, .f32⟩
  | 24 => ⟨S1x32, .f32⟩
  | 25 => ⟨S3200000x32, .f32⟩
  | 26 => ⟨S3200000x32, .f32⟩
  | 27 => ⟨S_, .f32⟩
  | 28 => ⟨S3200000x32, .f32⟩
  | 29 => ⟨S3200000x32, .f32⟩
  | 30 => ⟨S100000x64, .f32⟩
  | 31 => ⟨S100000, .i32⟩
  | 32 => ⟨S1x3200000, .i32⟩
  | 33 => ⟨S3200000, .i32⟩
  | 34 => ⟨S3300000, .i32⟩
  | 35 => ⟨S1x3200000, .i32⟩
  | 36 => ⟨S3200000, .i32⟩
  | 37 => ⟨S3300000, .i32⟩
  | 38 => ⟨S_, .f32⟩
  | 39 => ⟨S3300000, .f32⟩
  | 40 => ⟨S_, .f32⟩
  | 41 => ⟨S100000, .f32⟩
  | 42 => ⟨S3300000x1, .i32⟩
  | 43 => ⟨S100000, .f32⟩
  | 44 => ⟨S_, .f32⟩
  | 45 => ⟨S100000, .f32⟩
  | 46 => ⟨S100000, .i1⟩
  | 47 => ⟨S_, .f32⟩
  | 48 => ⟨S100000, .f32⟩
  | 49 => ⟨S100000, .f32⟩
  | 50 => ⟨S100000, .f32⟩
  | 51 => ⟨S_, .f32⟩
  | 52 => ⟨S_, .f32⟩
  | 53 => ⟨S100000, .f32⟩
  | 54 => ⟨S100000, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000, .f32⟩
  | 64 => ⟨S_, .i32⟩
  | 65 => ⟨S3300000, .i32⟩
  | 66 => ⟨S3300000, .i1⟩
  | 67 => ⟨S_, .i32⟩
  | 68 => ⟨S3300000, .i32⟩
  | 69 => ⟨S3300000, .i32⟩
  | 70 => ⟨S3300000, .i32⟩
  | 71 => ⟨S3300000x1, .i32⟩
  | 72 => ⟨S3300000, .f32⟩
  | 73 => ⟨S3300000, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000x64, .f32⟩
  | 83 => ⟨S3300000x1, .f32⟩
  | 84 => ⟨S3300000x64, .f32⟩
  | 85 => ⟨S3300000x64, .f32⟩
  | 86 => ⟨S_, .f32⟩
  | 87 => ⟨S100000x64, .f32⟩
  | 88 => ⟨S3300000x1, .i32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S100000, .i32⟩
  | 98 => ⟨S1x3200000, .i32⟩
  | 99 => ⟨S3200000, .i32⟩
  | 100 => ⟨S3300000, .i32⟩
  | 101 => ⟨S1x3200000, .i32⟩
  | 102 => ⟨S3200000, .i32⟩
  | 103 => ⟨S3300000, .i32⟩
  | 104 => ⟨S_, .f32⟩
  | 105 => ⟨S3300000, .f32⟩
  | 106 => ⟨S_, .f32⟩
  | 107 => ⟨S100000, .f32⟩
  | 108 => ⟨S3300000x1, .i32⟩
  | 109 => ⟨S100000, .f32⟩
  | 110 => ⟨S_, .f32⟩
  | 111 => ⟨S100000, .f32⟩
  | 112 => ⟨S100000, .i1⟩
  | 113 => ⟨S_, .f32⟩
  | 114 => ⟨S100000, .f32⟩
  | 115 => ⟨S100000, .f32⟩
  | 116 => ⟨S100000, .f32⟩
  | 117 => ⟨S_, .f32⟩
  | 118 => ⟨S_, .f32⟩
  | 119 => ⟨S100000, .f32⟩
  | 120 => ⟨S100000, .f32⟩
  | 121 => ⟨S_, .i32⟩
  | 122 => ⟨S3300000, .i32⟩
  | 123 => ⟨S3300000, .i1⟩
  | 124 => ⟨S_, .i32⟩
  | 125 => ⟨S3300000, .i32⟩
  | 126 => ⟨S3300000, .i32⟩
  | 127 => ⟨S3300000, .i32⟩
  | _ => ⟨S100000x2, .f32⟩

abbrev hbmTy0_1 (i : Nat) : BufTy := match i % 128 with
  | 0 => ⟨S3300000x1, .i32⟩
  | 1 => ⟨S3300000, .f32⟩
  | 2 => ⟨S_, .i32⟩
  | 3 => ⟨S3300000, .i32⟩
  | 4 => ⟨S3300000, .i1⟩
  | 5 => ⟨S_, .i32⟩
  | 6 => ⟨S3300000, .i32⟩
  | 7 => ⟨S3300000, .i32⟩
  | 8 => ⟨S3300000, .i32⟩
  | 9 => ⟨S3300000x1, .i32⟩
  | 10 => ⟨S3300000, .f32⟩
  | 11 => ⟨S3300000, .f32⟩
  | 12 => ⟨S_, .i32⟩
  | 13 => ⟨S3300000, .i32⟩
  | 14 => ⟨S3300000, .i1⟩
  | 15 => ⟨S_, .i32⟩
  | 16 => ⟨S3300000, .i32⟩
  | 17 => ⟨S3300000, .i32⟩
  | 18 => ⟨S3300000, .i32⟩
  | 19 => ⟨S3300000x1, .i32⟩
  | 20 => ⟨S3300000x64, .f32⟩
  | 21 => ⟨S3300000x1, .f32⟩
  | 22 => ⟨S3300000x64, .f32⟩
  | 23 => ⟨S3300000x64, .f32⟩
  | 24 => ⟨S_, .f32⟩
  | 25 => ⟨S100000x64, .f32⟩
  | 26 => ⟨S3300000x1, .i32⟩
  | 27 => ⟨S100000x64, .f32⟩
  | 28 => ⟨S1x64, .f32⟩
  | 29 => ⟨S100000x64, .f32⟩
  | 30 => ⟨S100000x64, .f32⟩
  | 31 => ⟨S_, .f32⟩
  | 32 => ⟨S100000x64, .f32⟩
  | 33 => ⟨S100000x64, .f32⟩
  | 34 => ⟨S_, .f32⟩
  | 35 => ⟨S1024x64, .f32⟩
  | 36 => ⟨S100000x1, .i32⟩
  | 37 => ⟨S1024x64, .f32⟩
  | 38 => ⟨S_, .f32⟩
  | 39 => ⟨S100000, .f32⟩
  | 40 => ⟨S_, .f32⟩
  | 41 => ⟨S1024, .f32⟩
  | 42 => ⟨S100000x1, .i32⟩
  | 43 => ⟨S1024, .f32⟩
  | 44 => ⟨S_, .f32⟩
  | 45 => ⟨S1024, .f32⟩
  | 46 => ⟨S1024, .f32⟩
  | 47 => ⟨S1024x1, .f32⟩
  | 48 => ⟨S1024x64, .f32⟩
  | 49 => ⟨S1024x64, .f32⟩
  | 50 => ⟨S1024x32, .f32⟩
  | 51 => ⟨S1x32, .f32⟩
  | 52 => ⟨S1024x32, .f32⟩
  | 53 => ⟨S1024x32, .f32⟩
  | 54 => ⟨S_, .f32⟩
  | 55 => ⟨S1024x32, .f32⟩
  | 56 => ⟨S1024x32, .f32⟩
  | 57 => ⟨S1024x1, .f32⟩
  | 58 => ⟨S1x1, .f32⟩
  | 59 => ⟨S1024x1, .f32⟩
  | 60 => ⟨S1024x1, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_cst_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_call2_v0 : Ref sig .tc := ⟨.hbm, 52, rfl⟩
abbrev main_call2_v1 : Ref sig .tc := ⟨.hbm, 53, rfl⟩
abbrev main_v27 : Ref sig .tc := ⟨.hbm, 54, rfl⟩
abbrev main_c : Ref sig .tc := ⟨.hbm, 55, rfl⟩
abbrev main_v28 : Ref sig .tc := ⟨.hbm, 56, rfl⟩
abbrev main_v29 : Ref sig .tc := ⟨.hbm, 57, rfl⟩
abbrev main_c_4 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_5 : Ref sig .tc := ⟨.hbm, 64, rfl⟩
abbrev main_v35 : Ref sig .tc := ⟨.hbm, 65, rfl⟩
abbrev main_v36 : Ref sig .tc := ⟨.hbm, 66, rfl⟩
abbrev main_c_6 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_7 : Ref sig .tc := ⟨.hbm, 74, rfl⟩
abbrev main_v43 : Ref sig .tc := ⟨.hbm, 75, rfl⟩
abbrev main_v44 : Ref sig .tc := ⟨.hbm, 76, rfl⟩
abbrev main_c_8 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call3_cst : Ref sig .tc := ⟨.hbm, 93, rfl⟩
abbrev main_call3_v0 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_10 : Ref sig .tc := ⟨.hbm, 104, rfl⟩
abbrev main_v68 : Ref sig .tc := ⟨.hbm, 105, rfl⟩
abbrev main_cst_11 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_12 : Ref sig .tc := ⟨.hbm, 110, rfl⟩
abbrev main_v72 : Ref sig .tc := ⟨.hbm, 111, rfl⟩
abbrev main_v73 : Ref sig .tc := ⟨.hbm, 112, rfl⟩
abbrev main_cst_13 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_14 : Ref sig .tc := ⟨.hbm, 117, rfl⟩
abbrev main_call4_v0 : Ref sig .tc := ⟨.hbm, 118, rfl⟩
abbrev main_call4_v1 : Ref sig .tc := ⟨.hbm, 119, rfl⟩
abbrev main_v77 : Ref sig .tc := ⟨.hbm, 120, rfl⟩
abbrev main_c_15 : Ref sig .tc := ⟨.hbm, 121, rfl⟩
abbrev main_v78 : Ref sig .tc := ⟨.hbm, 122, rfl⟩
abbrev main_v79 : Ref sig .tc := ⟨.hbm, 123, rfl⟩
abbrev main_c_16 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_c_17 : Ref sig .tc := ⟨.hbm, 130, rfl⟩
abbrev main_v85 : Ref sig .tc := ⟨.hbm, 131, rfl⟩
abbrev main_v86 : Ref sig .tc := ⟨.hbm, 132, rfl⟩
abbrev main_c_18 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_c_19 : Ref sig .tc := ⟨.hbm, 140, rfl⟩
abbrev main_v93 : Ref sig .tc := ⟨.hbm, 141, rfl⟩
abbrev main_v94 : Ref sig .tc := ⟨.hbm, 142, rfl⟩
abbrev main_c_20 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_21 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_call5_cst : Ref sig .tc := ⟨.hbm, 159, rfl⟩
abbrev main_call5_v0 : Ref sig .tc := ⟨.hbm, 160, rfl⟩
abbrev main_v109 : Ref sig .tc := ⟨.hbm, 161, rfl⟩
abbrev main_cst_22 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_23 : Ref sig .tc := ⟨.hbm, 166, rfl⟩
abbrev main_v113 : Ref sig .tc := ⟨.hbm, 167, rfl⟩
abbrev main_cst_24 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_cst_25 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_call6_cst : Ref sig .tc := ⟨.hbm, 182, rfl⟩
abbrev main_call6_v0 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S100000x2_S2x32_S100000x32_1_0_0_1_n_n_wf : DotDims.WF S100000x2 S2x32 S100000x32 [1] [0] [0] [1] [] []
  dot_S3200000x1_S1x32_S3200000x32_1_0_0_1_n_n_wf : DotDims.WF S3200000x1 S1x32 S3200000x32 [1] [0] [0] [1] [] []
  dot_S100000x32_S32x64_S100000x64_1_0_0_1_n_n_wf : DotDims.WF S100000x32 S32x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x32_S1024x32_1_0_0_1_n_n_wf : DotDims.WF S1024x64 S64x32 S1024x32 [1] [0] [0] [1] [] []
  dot_S1024x32_S32x1_S1024x1_1_0_0_1_n_n_wf : DotDims.WF S1024x32 S32x1 S1024x1 [1] [0] [0] [1] [] []

variable [Facts₀]

def dot_S100000x2_S2x32_S100000x32_1_0_0_1_n_n : DotDims S100000x2 S2x32 S100000x32 where
  lhsContracting := [1]
  rhsContracting := [0]
  lhsNonContracting := [0]
  rhsNonContracting := [1]
  lhsBatch := []
  rhsBatch := []
  wf := dot_S100000x2_S2x32_S100000x32_1_0_0_1_n_n_wf
def dot_S3200000x1_S1x32_S3200000x32_1_0_0_1_n_n : DotDims S3200000x1 S1x32 S3200000x32 where
  lhsContracting := [1]
  rhsContracting := [0]
  lhsNonContracting := [0]
  rhsNonContracting := [1]
  lhsBatch := []
  rhsBatch := []
  wf := dot_S3200000x1_S1x32_S3200000x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

class Facts : Prop extends Facts₀ where

variable [Facts]
-- ==== Proof.KernelRun.lean ====
/-
  The idealized kernel's run, with its result kept.

  The program is three launches of dense kernels among stretches of host operations.  Running it walks the memory through
  eleven boundaries: the launch memory, then after each host stretch the stretch's operations applied, and after each
  dense launch the launch's arrays at what its write-backs leave and every other buffer untouched.  Every weakly fair
  execution terminates without a fault, and in the final state EVERY buffer the program names outside a launch holds
  the last boundary's contents.  From that one fact we keep two things: the result buffer holds the last boundary's
  contents at the result (what those contents are, as a function of the arguments, is the business of the modules
  after this one), and each argument array holds what it was launched with.
-/
import proofs.«175389_j20237885899323_2_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v80) = W10 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v80 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.KernelIdeal.ResultRun

end
-- ==== Proof.LibPlainDot.lean ====
/-
  A plain matrix product read at an element, over the extended reals.

  For the dimension numbers "contract the left operand's axis 1 with the right operand's axis 0, no batch axis"
  (`DotDims.plain M K N`: an M×K array times a K×N array), the contraction position is one coordinate k < K, the left
  operand is read at (r, k) and the right at (k, c).  So the element (r, c) of the product — whether computed by the
  matrix unit into an accumulator of zeros or by the host's dot_general — is the finite sum  Σ_{k < K} lhs(r,k) · rhs(k,c).
  Nothing here depends on the extents, so the statement is for all M, K, N.
-/
import Idealize.ShloMosaic.Lib.ValueIdx
import Idealize.ShloMosaic.PureOps.Ideal.Laws

noncomputable section

open scoped BigOperators

namespace Cert.PlainDot

open Idealize.ShloMosaic Idealize.ShloMosaic.ValueIdx

variable {M K N : Nat}

/-- The left operand's row coordinate is the output's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- The right operand's column coordinate is the output's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The contraction sum of a plain product, re-indexed by the inner coordinate. -/
theorem sum_plain {φ₁ φ₂ : FTy} (lhs : FVec Ideal ⟨2, ![M, K]⟩ φ₁) (rhs : FVec Ideal ⟨2, ![K, N]⟩ φ₂) (r : Fin M) (c : Fin N) :
    ∑ q : (DotDims.plain M K N).contr.Idx,
        lhs ((DotDims.plain M K N).lhsIdx (ix2 r c) q) * rhs ((DotDims.plain M K N).rhsIdx (ix2 r c) q)
      = ∑ k : Fin K, lhs (ix2 r k) * rhs (ix2 k c) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx (ix2 r c) ((contrEquiv1 (DotDims.plain M K N) K hr hs).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K hr hs).symm k) = ix2 k c :=
    funext fun a => Fin.ext (by
      match a with
      | ⟨0, _⟩ => exact ((DotDims.plain M K N).rhsIdx_val_of_single rfl _ _).trans hk
      | ⟨1, _⟩ => exact rhs_col _ _)
  rw [el, er]

/-- A plain product accumulated by the matrix unit into zeros, at the element (r, c). -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (sum_plain lhs rhs r c)

/-- A plain product computed by the host's dot_general, at the element (r, c). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (sum_plain lhs rhs r c)

end Cert.PlainDot

end
-- ==== Proof.Dense.lean ====
/-
  The three dense maps of the network, element by element, over the extended reals.

  Each is a composition of matrix products with a bias and a rectifier, and each element of a result depends on ONE ROW of
  the left operand only.  We therefore state them for an array of any number of rows R: the same definition then
  describes a block of rows and the whole array, and each map is determined by the elements it reads (`*_congr`), which is
  all that is needed to pass from a block to the array it was cut from.

    node  x wn bn w1   (r, c) = Σ_{k<32} max(Σ_{l<2} x(r,l)·wn(l,k) + bn(k), 0) · w1(k,c)       relu(x·Wn + bn)·W1
    layer a b w        (r, c) = Σ_{k<64} max(a(r,k) + b(k), 0) · w(k,c)                          relu(a + b)·W
    head  p w1 b1 w2 b2 (r, 0) = Σ_{k<32} max(Σ_{l<64} p(r,l)·w1(l,k) + b1(k), 0) · w2(k,0) + b2  relu(p·W1 + b1)·W2 + b2

  The zero of the rectifier is kept as the float word 0x00000000 read at the extended reals: both programs spell it that way,
  so it is never evaluated.
-/
import Idealize.ShloMosaic.Lib.ValueIdx
import Idealize.ShloMosaic.PureOps.Ideal.Laws

noncomputable section

open scoped BigOperators

namespace Cert.Dense

open Idealize.ShloMosaic Idealize.ShloMosaic.ValueIdx

/-- The rectifier's threshold: the float word of +0.0, read at the extended reals. -/
abbrev zero32 : Ideal .f32 := Ideal.ofBits .f32 0x00000000#32

/-- relu(x·Wn + bn)·W1 at row r, column c. -/
def node {R : Nat} (x : FVec Ideal ⟨2, ![R, 2]⟩ .f32) (wn : FVec Ideal ⟨2, ![2, 32]⟩ .f32) (bn : Fin 32 → Ideal .f32)
    (w1 : FVec Ideal ⟨2, ![32, 64]⟩ .f32) (r : Fin R) (c : Fin 64) : Ideal .f32 :=
  ∑ k : Fin 32, max (∑ l : Fin 2, x (ix2 r l) * wn (ix2 l k) + bn k) zero32 * w1 (ix2 k c)

/-- relu(a + b)·W at row r, column c. -/
def layer {R : Nat} (a : FVec Ideal ⟨2, ![R, 64]⟩ .f32) (b : Fin 64 → Ideal .f32) (w : FVec Ideal ⟨2, ![64, 64]⟩ .f32)
    (r : Fin R) (c : Fin 64) : Ideal .f32 :=
  ∑ k : Fin 64, max (a (ix2 r k) + b k) zero32 * w (ix2 k c)

/-- relu(p·W1 + b1)·W2 + b2 at row r (the result has one column). -/
def head {R : Nat} (p : FVec Ideal ⟨2, ![R, 64]⟩ .f32) (w1 : FVec Ideal ⟨2, ![64, 32]⟩ .f32) (b1 : Fin 32 → Ideal .f32)
    (w2 : FVec Ideal ⟨2, ![32, 1]⟩ .f32) (b2 : Ideal .f32) (r : Fin R) (c : Fin 1) : Ideal .f32 :=
  ∑ k : Fin 32, max (∑ l : Fin 64, p (ix2 r l) * w1 (ix2 l k) + b1 k) zero32 * w2 (ix2 k c) + b2

/-- `node` depends only on the elements it reads: row r of x, all of Wn and bn, column c of W1. Two instances (of any
    numbers of rows) that agree there are equal. -/
theorem node_congr {R R' : Nat} (x : FVec Ideal ⟨2, ![R, 2]⟩ .f32) (x' : FVec Ideal ⟨2, ![R', 2]⟩ .f32)
    (wn wn' : FVec Ideal ⟨2, ![2, 32]⟩ .f32) (bn bn' : Fin 32 → Ideal .f32) (w1 w1' : FVec Ideal ⟨2, ![32, 64]⟩ .f32)
    (r : Fin R) (r' : Fin R') (c c' : Fin 64)
    (hx : ∀ l : Fin 2, x' (ix2 r' l) = x (ix2 r l)) (hwn : ∀ (l : Fin 2) (k : Fin 32), wn' (ix2 l k) = wn (ix2 l k))
    (hbn : ∀ k : Fin 32, bn' k = bn k) (hw1 : ∀ k : Fin 32, w1' (ix2 k c') = w1 (ix2 k c)) :
    node x' wn' bn' w1' r' c' = node x wn bn w1 r c := by
  unfold node
  refine Finset.sum_congr rfl fun k _ => ?_
  rw [hbn k, hw1 k, Finset.sum_congr rfl fun l _ => by rw [hx l, hwn l k]]

/-- `layer` depends only on row r of a, all of b, and column c of W. -/
theorem layer_congr {R R' : Nat} (a : FVec Ideal ⟨2, ![R, 64]⟩ .f32) (a' : FVec Ideal ⟨2, ![R', 64]⟩ .f32)
    (b b' : Fin 64 → Ideal .f32) (w w' : FVec Ideal ⟨2, ![64, 64]⟩ .f32) (r : Fin R) (r' : Fin R') (c c' : Fin 64)
    (ha : ∀ k : Fin 64, a' (ix2 r' k) = a (ix2 r k)) (hb : ∀ k : Fin 64, b' k = b k)
    (hw : ∀ k : Fin 64, w' (ix2 k c') = w (ix2 k c)) :
    layer a' b' w' r' c' = layer a b w r c := by
  unfold layer
  refine Finset.sum_congr rfl fun k _ => ?_
  rw [ha k, hb k, hw k]

/-- `head` depends only on row r of p, all of W1 and b1, column c of W2, and b2. -/
theorem head_congr {R R' : Nat} (p : FVec Ideal ⟨2, ![R, 64]⟩ .f32) (p' : FVec Ideal ⟨2, ![R', 64]⟩ .f32)
    (w1 w1' : FVec Ideal ⟨2, ![64, 32]⟩ .f32) (b1 b1' : Fin 32 → Ideal .f32) (w2 w2' : FVec Ideal ⟨2, ![32, 1]⟩ .f32)
    (b2 b2' : Ideal .f32) (r : Fin R) (r' : Fin R') (c c' : Fin 1)
    (hp : ∀ l : Fin 64, p' (ix2 r' l) = p (ix2 r l)) (hw1 : ∀ (l : Fin 64) (k : Fin 32), w1' (ix2 l k) = w1 (ix2 l k))
    (hb1 : ∀ k : Fin 32, b1' k = b1 k) (hw2 : ∀ k : Fin 32, w2' (ix2 k c') = w2 (ix2 k c)) (hb2 : b2' = b2) :
    head p' w1' b1' w2' b2' r' c' = head p w1 b1 w2 b2 r c := by
  unfold head
  rw [hb2]
  refine congrArg (· + b2) (Finset.sum_congr rfl fun k _ => ?_)
  rw [hb1 k, hw2 k, Finset.sum_congr rfl fun l _ => by rw [hp l, hw1 l k]]

end Cert.Dense

end
-- ==== Proof.KernelPay.lean ====
/-
  What each kernel body computes, at one element of its output block.

  A body loads its whole input blocks, rounds to a narrower float format (the identity over the extended reals), multiplies
  on the matrix unit into an accumulator of zeros, adds a bias row broadcast down the block, rectifies, and multiplies
  again.  Read at the element (p, q) of the output block, that is the dense map of `Cert.Dense` applied to the loaded
  blocks: a matrix-unit product into zeros is the finite sum over the inner coordinate (`Cert.PlainDot`), a [1, b] bias
  row broadcast to [a, b] is read at column q whatever the row, and every other operation acts element by element.
-/
import proofs.«175389_j20237885899323_2_alg».proof.Proof.Gen.KernelIdeal.Skeleton
import proofs.«175389_j20237885899323_2_alg».proof.Proof.LibPlainDot
import proofs.«175389_j20237885899323_2_alg».proof.Proof.Dense
import Idealize.ShloMosaic.Lib.Pipeline.Value
import Idealize.ShloMosaic.Lib.ValueLayout

noncomputable section

open scoped BigOperators

namespace Cert.KernelIdeal.Pay

open Idealize.ShloMosaic Idealize.ShloMosaic.ValueIdx Cert.KernelIdeal Cert.KernelIdeal.Gen

/-- A [1, b] bias row, recast to its own shape and broadcast down `a` rows, read at (p, c): the row's entry c. -/
theorem bias_row {a b : ℕ} (v : FVec Ideal ⟨2, ![1, b]⟩ .f32) (hc : (⟨2, ![1, b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = v (ix2 (0 : Fin 1) c) := by
  rw [shapeCast_self]
  exact broadcastTo_1b_ab_apply v hb p c

/-- The first kernel's body: relu(x·Wn + bn)·W1 of its blocks. -/
theorem k0_at (v0 : Vec Ideal S10000x2 .f32) (v2 : Vec Ideal S2x32 .f32) (v5 : Vec Ideal S1x32 .f32) (v12 : Vec Ideal S32x64 .f32)
    (p : Fin 10000) (q : Fin 64) :
    k0_pay1 (F := Ideal) v0 v2 v5 v12 (ix2 p q) = Dense.node v0 v2 (fun k => v5 (ix2 (0 : Fin 1) k)) v12 p q := by
  unfold k0_pay1 Dense.node
  refine (Cert.PlainDot.matmul_zero_apply (M := 10000) (K := 32) (N := 64) none _ _ p q).trans ?_
  refine Finset.sum_congr rfl fun k _ => ?_
  have hin : matmul (F := Ideal) dot_S10000x2_S2x32_S10000x32_1_0_0_1_n_n none (truncf .bf16 v0 bitsLt_bf16_f32) (truncf .bf16 v2 bitsLt_bf16_f32)
      (constant (F := Ideal) S10000x32 .f32 0x00000000#32) (ix2 p k) = ∑ l : Fin 2, v0 (ix2 p l) * v2 (ix2 l k) :=
    Cert.PlainDot.matmul_zero_apply (M := 10000) (K := 2) (N := 32) none _ _ p k
  have hb := bias_row (a := 10000) v5 shapeCasts_S1x32_S1x32 broadcasts_S1x32_S10000x32 p k
  exact congrArg₂ (fun a b => max (a + b) (Scalar.ofBits (F := Ideal) .f32 0x00000000#32) * v12 (ix2 k q)) hin hb

/-- The second kernel's body: relu(a + b)·W of its blocks. -/
theorem k1_at (v0 : Vec Ideal S10000x64 .f32) (v2 : Vec Ideal S1x64 .f32) (v9 : Vec Ideal S64x64 .f32) (p : Fin 10000) (q : Fin 64) :
    k1_pay1 (F := Ideal) v0 v2 v9 (ix2 p q) = Dense.layer v0 (fun k => v2 (ix2 (0 : Fin 1) k)) v9 p q := by
  unfold k1_pay1 Dense.layer
  rw [shapeCast_self v0 shapeCasts_S10000x64_S10000x64]
  refine (Cert.PlainDot.matmul_zero_apply (M := 10000) (K := 64) (N := 64) none _ _ p q).trans ?_
  refine Finset.sum_congr rfl fun k _ => ?_
  have hb := bias_row (a := 10000) v2 shapeCasts_S1x64_S1x64 broadcasts_S1x64_S10000x64 p k
  exact congrArg (fun b => max (v0 (ix2 p k) + b) (Scalar.ofBits (F := Ideal) .f32 0x00000000#32) * v9 (ix2 k q)) hb

/-- The third kernel's body: relu(p·W1 + b1)·W2 + b2 of its blocks. -/
theorem k2_at (v0 : Vec Ideal S1024x64 .f32) (v3 : Vec Ideal S64x32 .f32) (v6 : Vec Ideal S1x32 .f32) (v13 : Vec Ideal S32x1 .f32)
    (v16 : Vec Ideal S1x1 .f32) (p : Fin 1024) (q : Fin 1) :
    k2_pay1 (F := Ideal) v0 v3 v6 v13 v16 (ix2 p q)
      = Dense.head v0 v3 (fun k => v6 (ix2 (0 : Fin 1) k)) v13 (v16 (ix2 (0 : Fin 1) q)) p q := by
  unfold k2_pay1 Dense.head
  rw [shapeCast_self v0 shapeCasts_S1024x64_S1024x64]
  have hb2 := bias_row (a := 1024) v16 shapeCasts_S1x1_S1x1 broadcasts_S1x1_S1024x1 p q
  refine congrArg₂ (· + ·) ((Cert.PlainDot.matmul_zero_apply (M := 1024) (K := 32) (N := 1) none _ _ p q).trans ?_) hb2
  refine Finset.sum_congr rfl fun k _ => ?_
  have hin : matmul (F := Ideal) dot_S1024x64_S64x32_S1024x32_1_0_0_1_n_n none (truncf .bf16 v0 bitsLt_bf16_f32) (truncf .bf16 v3 bitsLt_bf16_f32)
      (constant (F := Ideal) S1024x32 .f32 0x00000000#32) (ix2 p k) = ∑ l : Fin 64, v0 (ix2 p l) * v3 (ix2 l k) :=
    Cert.PlainDot.matmul_zero_apply (M := 1024) (K := 64) (N := 32) none _ _ p k
  have hb := bias_row (a := 1024) v6 shapeCasts_S1x32_S1x32 broadcasts_S1x32_S1024x32 p k
  exact congrArg₂ (fun a b => max (a + b) (Scalar.ofBits (F := Ideal) .f32 0x00000000#32) * v13 (ix2 k q)) hin hb

end Cert.KernelIdeal.Pay

end
-- ==== Proof.Region0.lean ====
/-
  The first dense launch: its output array after the launch.

  The launch has ten grid points; point t stages rows [10000·t, 10000·t + 10000) of x and of the output, and the WHOLE of
  the two weight matrices and of the bias row.  At each point the body leaves in the output's staging buffer the dense map
  `Dense.node` of its staged blocks (`Pay.k0_at`), and that block is written back to rows [10000·t, …) of the output array.
  `Dense.node` reads one row of x per output row, so block t of the map of the WHOLE arrays is the map of block t; and
  the ten blocks tile the 100000 rows.  Hence the output array ends holding `Dense.node` of the whole arrays as the launch
  found them.
-/
import proofs.«175389_j20237885899323_2_alg».proof.Proof.Gen.KernelIdeal.Frame
import proofs.«175389_j20237885899323_2_alg».proof.Proof.KernelPay

set_option maxRecDepth 16384

noncomputable section

open scoped BigOperators

namespace Cert.KernelIdeal.Region0

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: relu(x·Wn + bn)·W1 of the arrays as the launch finds them, element by element. -/
def G (c : Dev nD) : Buf (Elt Ideal) ((c : Thread nD τ).loc main_v1) := fun i =>
  Dense.node (V c main_arg0) (V c main_arg4) (fun k => V c main_v0 (ix2 (0 : Fin 1) k)) (V c main_arg8) (i 0) (i 1)

/-- The block index maps, decided once over the ten grid points: x moves with the output down the rows; every other
    window, and every window's column index, stays at block 0. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 9 :=
  (by decide +kernel : ∀ t : Fin grid0.N, _)

/-- Every block of rows is some point's. -/
theorem idx_onto : ∀ q0 : Fin 10, ∃ t : Fin cfg0.N, win0_4.index t = ![q0.val, 0] :=
  (by decide +kernel : ∀ q0 : Fin 10, ∃ t : Fin grid0.N, win0_4.index t = ![q0.val, 0])

/-- What point t writes back is block t of `G`. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S10000x2) hz, View.ld_unit_zero (S := S2x32) hz, View.ld_unit_zero (S := S1x32) hz,
    View.ld_unit_zero (S := S32x64) hz]
  obtain ⟨e00, e01, e10, e11, e20, e21, e30, e31, e41, e4b⟩ := idx_facts t
  funext y
  show k0_pay1 (F := Ideal) (iblk0 V c 0 t) (iblk0 V c 1 t) (iblk0 V c 2 t) (iblk0 V c 3 t) y
    = G V c (((cfg0.win 4).blk t).view.emb y)
  refine ((congrArg (k0_pay1 (F := Ideal) (iblk0 V c 0 t) (iblk0 V c 1 t) (iblk0 V c 2 t) (iblk0 V c 3 t)) (eq_ix2 y)).trans
    (Pay.k0_at (iblk0 V c 0 t) (iblk0 V c 1 t) (iblk0 V c 2 t) (iblk0 V c 3 t) (y 0) (y 1))).trans ?_
  unfold G
  refine Dense.node_congr (V c main_arg0) (iblk0 V c 0 t) (V c main_arg4) (iblk0 V c 1 t)
    (fun k => V c main_v0 (ix2 (0 : Fin 1) k)) (fun k => iblk0 V c 2 t (ix2 (0 : Fin 1) k)) (V c main_arg8) (iblk0 V c 3 t)
    ((((cfg0.win 4).blk t).view.emb y) 0) (y 0) ((((cfg0.win 4).blk t).view.emb y) 1) (y 1) ?_ ?_ ?_ ?_
  · intro l
    show V c main_arg0 (((cfg0.win 0).blk t).view.emb (ix2 (y 0) l)) = V c main_arg0 (ix2 ((((cfg0.win 4).blk t).view.emb y) 0) l)
    refine congrArg (V c main_arg0) (funext fun a => Fin.ext ?_)
    match a with
    | ⟨0, _⟩ =>
      show win0_0.index t (0 : Fin 2) * 10000 + 1 * (y 0).val = win0_4.index t (0 : Fin 2) * 10000 + 1 * (y 0).val
      omega
    | ⟨1, _⟩ =>
      show win0_0.index t (1 : Fin 2) * 2 + 1 * l.val = l.val
      omega
  · intro l k
    show V c main_arg4 (((cfg0.win 1).blk t).view.emb (ix2 l k)) = V c main_arg4 (ix2 l k)
    refine congrArg (V c main_arg4) (funext fun a => Fin.ext ?_)
    match a with
    | ⟨0, _⟩ => show win0_1.index t (0 : Fin 2) * 2 + 1 * l.val = l.val; omega
    | ⟨1, _⟩ => show win0_1.index t (1 : Fin 2) * 32 + 1 * k.val = k.val; omega
  · intro k
    show V c main_v0 (((cfg0.win 2).blk t).view.emb (ix2 (0 : Fin 1) k)) = V c main_v0 (ix2 (0 : Fin 1) k)
    refine congrArg (V c main_v0) (funext fun a => Fin.ext ?_)
    match a with
    | ⟨0, _⟩ => show win0_2.index t (0 : Fin 2) * 1 + 1 * 0 = 0; omega
    | ⟨1, _⟩ => show win0_2.index t (1 : Fin 2) * 32 + 1 * k.val = k.val; omega
  · intro k
    show V c main_arg8 (((cfg0.win 3).blk t).view.emb (ix2 k (y 1))) = V c main_arg8 (ix2 k ((((cfg0.win 4).blk t).view.emb y) 1))
    refine congrArg (V c main_arg8) (funext fun a => Fin.ext ?_)
    match a with
    | ⟨0, _⟩ => show win0_3.index t (0 : Fin 2) * 32 + 1 * k.val = k.val; omega
    | ⟨1, _⟩ =>
      show win0_3.index t (1 : Fin 2) * 64 + 1 * (y 1).val = win0_4.index t (1 : Fin 2) * 64 + 1 * (y 1).val
      omega

/-- An index of the output array is in point t's block iff each coordinate is in the block's range on its axis. -/
theorem mem_blk (t : Fin cfg0.N) (i : S100000x64.Idx) :
    i ∈ ((cfg0.win 4).blk t).view.set ↔ ∀ a : Fin 2, win0_4.index t a * S10000x64.size a ≤ (i a).val
      ∧ (i a).val < win0_4.index t a * S10000x64.size a + S10000x64.size a := by
  show i ∈ ((View.whole main_v1).slice (win0_4.rect t)).set ↔ _
  rw [View.set_slice_whole, Rect.mem_set_unit]
  exact Iff.rfl

/-- The ten blocks tile the array: row r is in the block of point r / 10000. -/
theorem cover (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto ⟨(i 0).val / 10000, by omega⟩
  have q0 : win0_4.index t (0 : Fin 2) = (i 0).val / 10000 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 10000 ≤ (i 0).val ∧ (i 0).val < win0_4.index t (0 : Fin 2) * 10000 + 10000
    omega
  | ⟨1, _⟩ =>
    show win0_4.index t (1 : Fin 2) * 64 ≤ (i 1).val ∧ (i 1).val < win0_4.index t (1 : Fin 2) * 64 + 64
    omega

/-- The output array after the launch is `G`. -/
theorem array (c : Dev nD) : (dat0 V c).arrAt 4 cfg0.N = G V c :=
  (dat0 V c).arrAt_eq_of_cover 4 (G V c) (fun t _ => flushed_eq V c t) (cover)

end Cert.KernelIdeal.Region0

end
-- ==== Proof.Region1.lean ====
/-
  The second dense launch: its output array after the launch.

  Ten grid points again; point t stages rows [10000·t, 10000·t + 10000) of the aggregated features and of the output, and
  the whole bias row and weight matrix.  The body leaves `Dense.layer` of its staged blocks (`Pay.k1_at`); `Dense.layer`
  reads one row of the features per output row, and the ten blocks tile the rows.  Hence the output array ends holding
  `Dense.layer` of the whole arrays as the launch found them.
-/
import proofs.«175389_j20237885899323_2_alg».proof.Proof.Gen.KernelIdeal.Frame
import proofs.«175389_j20237885899323_2_alg».proof.Proof.KernelPay

set_option maxRecDepth 16384

noncomputable section

open scoped BigOperators

namespace Cert.KernelIdeal.Region1

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: relu(a + b)·W of the arrays as the launch finds them, element by element. -/
def G (c : Dev nD) : Buf (Elt Ideal) ((c : Thread nD τ).loc main_v48) := fun i =>
  Dense.layer (V c main_v46) (fun k => V c main_v47 (ix2 (0 : Fin 1) k)) (V c main_arg10) (i 0) (i 1)

/-- The block index maps over the ten grid points: the features move with the output down the rows; the bias row, the
    weight, and every column index stay at block 0. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every block of rows is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- What point t writes back is block t of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  obtain ⟨e00, e01, e10, e11, e20, e21, e31, e3b⟩ := idx_facts t
  funext y
  show k1_pay1 (F := Ideal) (iblk1 V c 0 t) (iblk1 V c 1 t) (iblk1 V c 2 t) y = G V c (((cfg1.win 3).blk t).view.emb y)
  refine ((congrArg (k1_pay1 (F := Ideal) (iblk1 V c 0 t) (iblk1 V c 1 t) (iblk1 V c 2 t)) (eq_ix2 y)).trans
    (Pay.k1_at (iblk1 V c 0 t) (iblk1 V c 1 t) (iblk1 V c 2 t) (y 0) (y 1))).trans ?_
  unfold G
  refine Dense.layer_congr (V c main_v46) (iblk1 V c 0 t) (fun k => V c main_v47 (ix2 (0 : Fin 1) k))
    (fun k => iblk1 V c 1 t (ix2 (0 : Fin 1) k)) (V c main_arg10) (iblk1 V c 2 t)
    ((((cfg1.win 3).blk t).view.emb y) 0) (y 0) ((((cfg1.win 3).blk t).view.emb y) 1) (y 1) ?_ ?_ ?_
  · intro k
    show V c main_v46 (((cfg1.win 0).blk t).view.emb (ix2 (y 0) k)) = V c main_v46 (ix2 ((((cfg1.win 3).blk t).view.emb y) 0) k)
    refine congrArg (V c main_v46) (funext fun a => Fin.ext ?_)
    match a with
    | ⟨0, _⟩ =>
      show win1_0.index t (0 : Fin 2) * 10000 + 1 * (y 0).val = win1_3.index t (0 : Fin 2) * 10000 + 1 * (y 0).val
      omega
    | ⟨1, _⟩ => show win1_0.index t (1 : Fin 2) * 64 + 1 * k.val = k.val; omega
  · intro k
    show V c main_v47 (((cfg1.win 1).blk t).view.emb (ix2 (0 : Fin 1) k)) = V c main_v47 (ix2 (0 : Fin 1) k)
    refine congrArg (V c main_v47) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · intro k
    show V c main_arg10 (((cfg1.win 2).blk t).view.emb (ix2 k (y 1))) = V c main_arg10 (ix2 k ((((cfg1.win 3).blk t).view.emb y) 1))
    refine congrArg (V c main_arg10) (funext fun a => Fin.ext ?_)
    match a with
    | ⟨0, _⟩ => show win1_2.index t (0 : Fin 2) * 64 + 1 * k.val = k.val; omega
    | ⟨1, _⟩ =>
      show win1_2.index t (1 : Fin 2) * 64 + 1 * (y 1).val = win1_3.index t (1 : Fin 2) * 64 + 1 * (y 1).val
      omega

/-- An index of the output array is in point t's block iff each coordinate is in the block's range on its axis. -/
theorem mem_blk (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v48).slice (win1_3.rect t)).set ↔ _
  rw [View.set_slice_whole, Rect.mem_set_unit]
  exact Iff.rfl

/-- The ten blocks tile the array: row r is in the block of point r / 10000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

/-- The output array after the launch is `G`. -/
theorem array (c : Dev nD) : (dat1 V c).arrAt 3 cfg1.N = G V c :=
  (dat1 V c).arrAt_eq_of_cover 3 (G V c) (fun t _ => flushed_eq V c t) (cover)

end Cert.KernelIdeal.Region1

end
-- ==== Proof.Region2.lean ====
/-
  The third dense launch (the head): its output array after the launch.

  One grid point, every window the whole of its array.  The body leaves `Dense.head` of its staged blocks (`Pay.k2_at`),
  the blocks ARE the arrays, and the one block is the whole output.  Hence the output array ends holding `Dense.head` of
  the arrays as the launch found them.
-/
import proofs.«175389_j20237885899323_2_alg».proof.Proof.Gen.KernelIdeal.Frame
import proofs.«175389_j20237885899323_2_alg».proof.Proof.KernelPay

set_option maxRecDepth 16384

noncomputable section

open scoped BigOperators

namespace Cert.KernelIdeal.Region2

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: relu(p·W1 + b1)·W2 + b2 of the arrays as the launch finds them. -/
def G (c : Dev nD) : Buf (Elt Ideal) ((c : Thread nD τ).loc main_v80) := fun i =>
  Dense.head (V c main_v77) (V c main_arg12) (fun k => V c main_v78 (ix2 (0 : Fin 1) k)) (V c main_arg14)
    (V c main_v79 (ix2 (0 : Fin 1) (0 : Fin 1))) (i 0) (i 1)

/-- The block index maps at the one grid point: every window at block 0 on both axes. -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- There is a grid point (the one). -/
theorem point : ∃ t : Fin cfg2.N, win2_5.index t = ![0, 0] :=
  (by decide +kernel : ∃ t : Fin grid2.N, win2_5.index t = ![0, 0])

/-- What the point writes back is `G` read through the one block. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S1024x64) hz, View.ld_unit_zero (S := S64x32) hz, View.ld_unit_zero (S := S1x32) hz,
    View.ld_unit_zero (S := S32x1) hz, View.ld_unit_zero (S := S1x1) hz]
  obtain ⟨e00, e01, e10, e11, e20, e21, e30, e31, e40, e41, e50, e51⟩ := idx_facts t
  funext y
  show k2_pay1 (F := Ideal) (iblk2 V c 0 t) (iblk2 V c 1 t) (iblk2 V c 2 t) (iblk2 V c 3 t) (iblk2 V c 4 t) y
    = G V c (((cfg2.win 5).blk t).view.emb y)
  refine ((congrArg (k2_pay1 (F := Ideal) (iblk2 V c 0 t) (iblk2 V c 1 t) (iblk2 V c 2 t) (iblk2 V c 3 t) (iblk2 V c 4 t)) (eq_ix2 y)).trans
    (Pay.k2_at (iblk2 V c 0 t) (iblk2 V c 1 t) (iblk2 V c 2 t) (iblk2 V c 3 t) (iblk2 V c 4 t) (y 0) (y 1))).trans ?_
  unfold G
  refine Dense.head_congr (V c main_v77) (iblk2 V c 0 t) (V c main_arg12) (iblk2 V c 1 t)
    (fun k => V c main_v78 (ix2 (0 : Fin 1) k)) (fun k => iblk2 V c 2 t (ix2 (0 : Fin 1) k)) (V c main_arg14) (iblk2 V c 3 t)
    (V c main_v79 (ix2 (0 : Fin 1) (0 : Fin 1))) (iblk2 V c 4 t (ix2 (0 : Fin 1) (y 1)))
    ((((cfg2.win 5).blk t).view.emb y) 0) (y 0) ((((cfg2.win 5).blk t).view.emb y) 1) (y 1) ?_ ?_ ?_ ?_ ?_
  · intro l
    show V c main_v77 (((cfg2.win 0).blk t).view.emb (ix2 (y 0) l)) = V c main_v77 (ix2 ((((cfg2.win 5).blk t).view.emb y) 0) l)
    refine congrArg (V c main_v77) (funext fun a => Fin.ext ?_)
    match a with
    | ⟨0, _⟩ =>
      show win2_0.index t (0 : Fin 2) * 1024 + 1 * (y 0).val = win2_5.index t (0 : Fin 2) * 1024 + 1 * (y 0).val
      omega
    | ⟨1, _⟩ => show win2_0.index t (1 : Fin 2) * 64 + 1 * l.val = l.val; omega
  · intro l k
    show V c main_arg12 (((cfg2.win 1).blk t).view.emb (ix2 l k)) = V c main_arg12 (ix2 l k)
    refine congrArg (V c main_arg12) (funext fun a => Fin.ext ?_)
    match a with
    | ⟨0, _⟩ => show win2_1.index t (0 : Fin 2) * 64 + 1 * l.val = l.val; omega
    | ⟨1, _⟩ => show win2_1.index t (1 : Fin 2) * 32 + 1 * k.val = k.val; omega
  · intro k
    show V c main_v78 (((cfg2.win 2).blk t).view.emb (ix2 (0 : Fin 1) k)) = V c main_v78 (ix2 (0 : Fin 1) k)
    refine congrArg (V c main_v78) (funext fun a => Fin.ext ?_)
    match a with
    | ⟨0, _⟩ => show win2_2.index t (0 : Fin 2) * 1 + 1 * 0 = 0; omega
    | ⟨1, _⟩ => show win2_2.index t (1 : Fin 2) * 32 + 1 * k.val = k.val; omega
  · intro k
    show V c main_arg14 (((cfg2.win 3).blk t).view.emb (ix2 k (y 1))) = V c main_arg14 (ix2 k ((((cfg2.win 5).blk t).view.emb y) 1))
    refine congrArg (V c main_arg14) (funext fun a => Fin.ext ?_)
    match a with
    | ⟨0, _⟩ => show win2_3.index t (0 : Fin 2) * 32 + 1 * k.val = k.val; omega
    | ⟨1, _⟩ =>
      show win2_3.index t (1 : Fin 2) * 1 + 1 * (y 1).val = win2_5.index t (1 : Fin 2) * 1 + 1 * (y 1).val
      omega
  · show V c main_v79 (((cfg2.win 4).blk t).view.emb (ix2 (0 : Fin 1) (y 1))) = V c main_v79 (ix2 (0 : Fin 1) (0 : Fin 1))
    refine congrArg (V c main_v79) (funext fun a => Fin.ext ?_)
    have hy1 : (y 1).val < 1 := (y 1).isLt
    match a with
    | ⟨0, _⟩ => show win2_4.index t (0 : Fin 2) * 1 + 1 * 0 = 0; omega
    | ⟨1, _⟩ => show win2_4.index t (1 : Fin 2) * 1 + 1 * (y 1).val = 0; omega

/-- An index of the output array is in the point's block iff each coordinate is in the block's range on its axis. -/
theorem mem_blk (t : Fin cfg2.N) (i : S1024x1.Idx) :
    i ∈ ((cfg2.win 5).blk t).view.set ↔ ∀ a : Fin 2, win2_5.index t a * S1024x1.size a ≤ (i a).val
      ∧ (i a).val < win2_5.index t a * S1024x1.size a + S1024x1.size a := by
  show i ∈ ((View.whole main_v80).slice (win2_5.rect t)).set ↔ _
  rw [View.set_slice_whole, Rect.mem_set_unit]
  exact Iff.rfl

/-- The one block is the whole array. -/
theorem cover (i : S1024x1.Idx) : ∃ t : Fin cfg2.N, (cfg2.win 5).flush t = true ∧ i ∈ ((cfg2.win 5).blk t).view.set := by
  have hi0 : (i 0).val < 1024 := (i 0).isLt
  have hi1 : (i 1).val < 1 := (i 1).isLt
  obtain ⟨t, ht⟩ := point
  have q0 : win2_5.index t (0 : Fin 2) = 0 := congrFun ht 0
  have q1 : win2_5.index t (1 : Fin 2) = 0 := congrFun ht 1
  refine ⟨t, flush2_5 t, ?_⟩
  rw [mem_blk]
  intro a
  match a with
  | ⟨0, _⟩ =>
    show win2_5.index t (0 : Fin 2) * 1024 ≤ (i 0).val ∧ (i 0).val < win2_5.index t (0 : Fin 2) * 1024 + 1024
    omega
  | ⟨1, _⟩ =>
    show win2_5.index t (1 : Fin 2) * 1 ≤ (i 1).val ∧ (i 1).val < win2_5.index t (1 : Fin 2) * 1 + 1
    omega

/-- The output array after the launch is `G`. -/
theorem array (c : Dev nD) : (dat2 V c).arrAt 5 cfg2.N = G V c :=
  (dat2 V c).arrAt_eq_of_cover 5 (G V c) (fun t _ => flushed_eq V c t) (cover)

end Cert.KernelIdeal.Region2

end
-- ==== Proof.RefDense.lean ====
/-
  What the reference's dense pieces compute, at one element.

  The reference spells each dense piece with host operations over whole arrays: a dot_general, a bias [n] broadcast to
  [1, n] and then down the rows, an addition, a maximum with a broadcast zero, and a dot_general again.  Read at the
  element (r, c) that is the dense map of `Cert.Dense` of the whole arrays: the host product is the finite sum over the
  inner coordinate (`Cert.PlainDot`), the twice-broadcast bias is read at its entry c whatever the row, and the rest acts
  element by element.  The three statements are about the reference's own stage functions (the reference's value, stage
  by stage, as functions of the program's arguments).
-/
import proofs.«175389_j20237885899323_2_alg».proof.Proof.ReferenceRead
import proofs.«175389_j20237885899323_2_alg».proof.Proof.LibPlainDot
import proofs.«175389_j20237885899323_2_alg».proof.Proof.Dense

noncomputable section

open scoped BigOperators

namespace Cert.ReferenceIdeal.DenseStages

open Idealize.ShloMosaic Idealize.ShloMosaic.ValueIdx Cert.ReferenceIdeal Cert.ReferenceIdeal.ReadP

/-- The node bias, broadcast [32] → [1, 32] → [100000, 32], read at (r, k): its entry k. -/
theorem bias_v2 (x5 : FVec Ideal S32 .f32) (r : Fin 100000) (k : Fin 32) : val_main_v2 (F := Ideal) x5 (ix2 r k) = x5 (ix1 k) :=
  (val_main_v2_apply (F := Ideal) x5 (ix2 r k)).trans ((val_main_v1_apply (F := Ideal) x5 _).trans
    (congrArg x5 (funext fun a => match a with | ⟨0, _⟩ => Fin.ext rfl)))

/-- The first layer's bias, broadcast [64] → [1, 64] → [100000, 64], read at (r, k). -/
theorem bias_v57 (x9 : FVec Ideal S64 .f32) (r : Fin 100000) (k : Fin 64) : val_main_v57 (F := Ideal) x9 (ix2 r k) = x9 (ix1 k) :=
  (val_main_v57_apply (F := Ideal) x9 (ix2 r k)).trans ((val_main_v56_apply (F := Ideal) x9 _).trans
    (congrArg x9 (funext fun a => match a with | ⟨0, _⟩ => Fin.ext rfl)))

/-- The head's hidden bias, broadcast [32] → [1, 32] → [1024, 32], read at (r, k). -/
theorem bias_v124 (x13 : FVec Ideal S32 .f32) (r : Fin 1024) (k : Fin 32) : val_main_v124 (F := Ideal) x13 (ix2 r k) = x13 (ix1 k) :=
  (val_main_v124_apply (F := Ideal) x13 (ix2 r k)).trans ((val_main_v123_apply (F := Ideal) x13 _).trans
    (congrArg x13 (funext fun a => match a with | ⟨0, _⟩ => Fin.ext rfl)))

/-- The head's output bias, broadcast [1] → [1, 1] → [1024, 1], read at (r, q): its one entry. -/
theorem bias_v129 (x15 : FVec Ideal S1 .f32) (r : Fin 1024) (q : Fin 1) : val_main_v129 (F := Ideal) x15 (ix2 r q) = x15 (ix1 (0 : Fin 1)) :=
  (val_main_v129_apply (F := Ideal) x15 (ix2 r q)).trans ((val_main_v128_apply (F := Ideal) x15 _).trans
    (congrArg x15 (funext fun a => match a with | ⟨0, _⟩ => Fin.ext rfl)))

/-- The reference's relu(x·Wn + bn)·W1, at (r, c). -/
theorem v10_at (x0 : FVec Ideal S100000x2 .f32) (x4 : FVec Ideal S2x32 .f32) (x5 : FVec Ideal S32 .f32) (x8 : FVec Ideal S32x64 .f32)
    (r : Fin 100000) (c : Fin 64) :
    val_main_v10 (F := Ideal) x0 x4 x5 x8 (ix2 r c) = Dense.node x0 x4 (fun k => x5 (ix1 k)) x8 r c := by
  unfold val_main_v10 Dense.node
  refine (Cert.PlainDot.dotGeneral_apply (M := 100000) (K := 32) (N := 64) none _ _ _ r c).trans ?_
  refine Finset.sum_congr rfl fun k _ => ?_
  have hin : val_main_v0 (F := Ideal) x0 x4 (ix2 r k) = ∑ l : Fin 2, x0 (ix2 r l) * x4 (ix2 l k) :=
    Cert.PlainDot.dotGeneral_apply (M := 100000) (K := 2) (N := 32) none _ _ _ r k
  exact congrArg₂ (fun a b => max (a + b) Dense.zero32 * x8 (ix2 k c)) hin (bias_v2 x5 r k)

/-- relu(a + b)·W spelt with the host's operations over whole arrays, for ANY array `a` of features, at (r, c). The
    features are a variable here: nothing about how they were computed is opened. -/
theorem layer_host (a : FVec Ideal S100000x64 .f32) (x9 : FVec Ideal S64 .f32) (x10 : FVec Ideal S64x64 .f32)
    (r : Fin 100000) (c : Fin 64) :
    Host.dotGeneral (F := Ideal) dot_S100000x64_S64x64_S100000x64_1_0_0_1_n_n none
        (maximumf (addf a (val_main_v57 (F := Ideal) x9)) (val_main_call3_v0 (F := Ideal))) x10 (ix2 r c)
      = Dense.layer a (fun k => x9 (ix1 k)) x10 r c := by
  unfold Dense.layer
  refine (Cert.PlainDot.dotGeneral_apply (M := 100000) (K := 64) (N := 64) none _ _ _ r c).trans ?_
  refine Finset.sum_congr rfl fun k _ => ?_
  exact congrArg (fun b => max (a (ix2 r k) + b) Dense.zero32 * x10 (ix2 k c)) (bias_v57 x9 r k)

/-- The reference's relu(agg + b)·W for its first aggregation, at (r, c): the three outer stages opened, the aggregation
    kept closed. -/
theorem v60_at (x0 : FVec Ideal S100000x2 .f32) (x2 : IVec S2x3200000 32) (x4 : FVec Ideal S2x32 .f32) (x5 : FVec Ideal S32 .f32)
    (x8 : FVec Ideal S32x64 .f32) (x9 : FVec Ideal S64 .f32) (x10 : FVec Ideal S64x64 .f32) (r : Fin 100000) (c : Fin 64) :
    val_main_v60 (F := Ideal) x0 x2 x4 x5 x8 x9 x10 (ix2 r c)
      = Dense.layer (val_main_v55 (F := Ideal) x0 x2 x4 x5 x8) (fun k => x9 (ix1 k)) x10 r c := by
  unfold val_main_v60 val_main_v59 val_main_v58
  exact layer_host (val_main_v55 (F := Ideal) x0 x2 x4 x5 x8) x9 x10 r c

/-- relu(p·W1 + b1)·W2 + b2 spelt with the host's operations, for ANY array `p` of pooled features, at (r, q). -/
theorem head_host (p : FVec Ideal S1024x64 .f32) (x12 : FVec Ideal S64x32 .f32) (x13 : FVec Ideal S32 .f32)
    (x14 : FVec Ideal S32x1 .f32) (x15 : FVec Ideal S1 .f32) (r : Fin 1024) (q : Fin 1) :
    addf (Host.dotGeneral (F := Ideal) dot_S1024x32_S32x1_S1024x1_1_0_0_1_n_n none
          (maximumf (addf (Host.dotGeneral (F := Ideal) dot_S1024x64_S64x32_S1024x32_1_0_0_1_n_n none p x12) (val_main_v124 (F := Ideal) x13))
            (val_main_call6_v0 (F := Ideal))) x14)
        (val_main_v129 (F := Ideal) x15) (ix2 r q)
      = Dense.head p x12 (fun k => x13 (ix1 k)) x14 (x15 (ix1 (0 : Fin 1))) r q := by
  unfold Dense.head
  refine congrArg₂ (· + ·) ((Cert.PlainDot.dotGeneral_apply (M := 1024) (K := 32) (N := 1) none _ _ _ r q).trans ?_) (bias_v129 x15 r q)
  refine Finset.sum_congr rfl fun k _ => ?_
  have hin : Host.dotGeneral (F := Ideal) dot_S1024x64_S64x32_S1024x32_1_0_0_1_n_n none p x12 (ix2 r k)
      = ∑ l : Fin 64, p (ix2 r l) * x12 (ix2 l k) :=
    Cert.PlainDot.dotGeneral_apply (M := 1024) (K := 64) (N := 32) none _ _ _ r k
  exact congrArg₂ (fun a b => max (a + b) Dense.zero32 * x14 (ix2 k q)) hin (bias_v124 x13 r k)

/-- The reference's relu(pooled·W1 + b1)·W2 + b2, at (r, q): the head's stages opened, the pooling kept closed. -/
theorem v130_at (x0 : FVec Ideal S100000x2 .f32) (x2 : IVec S2x3200000 32) (x3 : IVec S100000 32) (x4 : FVec Ideal S2x32 .f32)
    (x5 : FVec Ideal S32 .f32) (x8 : FVec Ideal S32x64 .f32) (x9 : FVec Ideal S64 .f32) (x10 : FVec Ideal S64x64 .f32)
    (x11 : FVec Ideal S64 .f32) (x12 : FVec Ideal S64x32 .f32) (x13 : FVec Ideal S32 .f32) (x14 : FVec Ideal S32x1 .f32)
    (x15 : FVec Ideal S1 .f32) (r : Fin 1024) (q : Fin 1) :
    val_main_v130 (F := Ideal) x0 x2 x3 x4 x5 x8 x9 x10 x11 x12 x13 x14 x15 (ix2 r q)
      = Dense.head (val_main_v121 (F := Ideal) x0 x2 x3 x4 x5 x8 x9 x10 x11) x12 (fun k => x13 (ix1 k)) x14 (x15 (ix1 (0 : Fin 1))) r q := by
  unfold val_main_v130 val_main_v127 val_main_v126 val_main_v125 val_main_v122
  exact head_host (val_main_v121 (F := Ideal) x0 x2 x3 x4 x5 x8 x9 x10 x11) x12 x13 x14 x15 r q

end Cert.ReferenceIdeal.DenseStages

end
-- ==== Proof.WalkBase.lean ====
/-
  Walking the memory through the program, first part.

  The program's memory at each boundary is a fold from the launch memory (host stretches applied, launches' arrays
  replaced).  To read a buffer at a boundary we walk the fold back: a host stretch that does not write the buffer leaves it
  alone (the references differ, decided); a launch leaves every buffer that is not one of its arrays alone; a buffer a
  stretch does write is the stretch's operations applied.  Here: the first launch's inputs are the arguments as launched
  and the node bias recast to a row, and — joining the first launch's array (`Region0.array`) with the reference's own
  stage read at an element (`DenseStages.v10_at`) — after the first launch the features times W1 ARE the reference's stage.
-/
import proofs.«175389_j20237885899323_2_alg».proof.Proof.Region0
import proofs.«175389_j20237885899323_2_alg».proof.Proof.Region1
import proofs.«175389_j20237885899323_2_alg».proof.Proof.Region2
import proofs.«175389_j20237885899323_2_alg».proof.Proof.RefDense
import Idealize.ShloMosaic.Lib.StableHlo.Run
import Idealize.ShloMosaic.Lib.ValueLayout

set_option maxRecDepth 16384

noncomputable section

open scoped BigOperators

namespace Cert.KernelIdeal.Walk

open Idealize.ShloMosaic Idealize.ShloMosaic.ValueIdx Idealize.ShloMosaic.TcCoe Idealize.SL.Sem
open Cert.KernelIdeal Cert.KernelIdeal.Gen

/-- Finishes what the one-pass evaluation of a host stretch leaves inside a list of (shape, array) pairs: each operation's
    result at its own buffer is its function's value, at any other buffer what was there (the references differ, decided). -/
macro "finish_results" : tactic => `(tactic| repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide)))

variable (m : (ℓ : Loc nD τ sig) → Buf (Elt Ideal) ℓ) (ρ : Dev nD → PrngReg) (c : Dev nD)

/-- A host stretch leaves a buffer alone when none of its operations writes it: the references differ, decided. -/
macro "skip_stretch" : tactic => `(tactic| exact StableHlo.after_of_forall_not_mem _ _ (List.forall_iff_forall_mem.mp (by
    simp only [hostOps0, hostOps1, hostOps1_1, hostOps1_2, hostOps2, hostOps2_1, hostOps2_2, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-! ## The first launch's inputs: the arguments as launched, the bias recast to a row -/
theorem w1_arg0 : W1 m ρ c (Proc.devRef .tc main_arg0) = (m ((c : Thread nD τ).loc main_arg0)) :=
  (by skip_stretch : W1 m ρ c (Proc.devRef .tc main_arg0) = W0 m ρ c (Proc.devRef .tc main_arg0)).trans rfl
theorem w1_arg4 : W1 m ρ c (Proc.devRef .tc main_arg4) = (m ((c : Thread nD τ).loc main_arg4)) :=
  (by skip_stretch : W1 m ρ c (Proc.devRef .tc main_arg4) = W0 m ρ c (Proc.devRef .tc main_arg4)).trans rfl
theorem w1_arg8 : W1 m ρ c (Proc.devRef .tc main_arg8) = (m ((c : Thread nD τ).loc main_arg8)) :=
  (by skip_stretch : W1 m ρ c (Proc.devRef .tc main_arg8) = W0 m ρ c (Proc.devRef .tc main_arg8)).trans rfl

theorem w1_v0 : W1 m ρ c (Proc.devRef .tc main_v0) = shapeCast S1x32 (m ((c : Thread nD τ).loc main_arg5)) shapeCasts_S32_S1x32 := by
  show StableHlo.after hostOps0 (W0 m ρ c) (Proc.devRef .tc main_v0) = _
  simp only [hostOps0]
  after_results
  rfl

/-- E1: after the first launch the node features times W1 are the reference's stage. -/
theorem e1 : W2 m ρ c (Proc.devRef .tc main_v1)
    = Cert.ReferenceIdeal.ReadP.val_main_v10 (F := Ideal) (m ((c : Thread nD τ).loc main_arg0)) (m ((c : Thread nD τ).loc main_arg4)) (m ((c : Thread nD τ).loc main_arg5)) (m ((c : Thread nD τ).loc main_arg8)) := by
  refine (W2_arr m ρ c 4).trans ((Region0.array (V1 m ρ) c).trans ?_)
  funext i
  refine Eq.trans ?_ (((congrArg (Cert.ReferenceIdeal.ReadP.val_main_v10 (F := Ideal) (m ((c : Thread nD τ).loc main_arg0)) (m ((c : Thread nD τ).loc main_arg4)) (m ((c : Thread nD τ).loc main_arg5)) (m ((c : Thread nD τ).loc main_arg8))) (eq_ix2 i)).trans
      (Cert.ReferenceIdeal.DenseStages.v10_at _ _ _ _ (i 0) (i 1))).symm)
  unfold Region0.G
  refine Dense.node_congr _ _ _ _ _ _ _ _ (i 0) (i 0) (i 1) (i 1) ?_ ?_ ?_ ?_
  · intro l; exact congrFun (w1_arg0 m ρ c) _
  · intro l k; exact congrFun (w1_arg4 m ρ c) _
  · intro k
    show W1 m ρ c (Proc.devRef .tc main_v0) (ix2 (0 : Fin 1) k) = (m ((c : Thread nD τ).loc main_arg5)) (ix1 k)
    rw [w1_v0]
    exact shapeCast_a_1a_apply _ _ 0 k
  · intro k; exact congrFun (w1_arg8 m ρ c) _

theorem w2_arg2 : W2 m ρ c (Proc.devRef .tc main_arg2) = (m ((c : Thread nD τ).loc main_arg2)) :=
  (W2_of_ne m ρ c main_arg2 (by decide)).trans
    ((by skip_stretch : W1 m ρ c (Proc.devRef .tc main_arg2) = W0 m ρ c (Proc.devRef .tc main_arg2)).trans rfl)

end Cert.KernelIdeal.Walk

end
-- ==== Proof.WalkHost1a.lean ====
/-
  Walking the memory through the program: the first host stretch.

  After the first launch the host builds, from the edge list alone, the source and destination indices (the edges followed by
  one self loop per node), the degree of each node (a scatter-add of ones at the destinations), where it is positive, and its
  reciprocal square root floored at a small constant.  The reference builds the same vectors by the same operations; each is
  the reference's own stage of the edge list.  (Each buffer is read by evaluating the stretch's operations in order.)
-/
import proofs.«175389_j20237885899323_2_alg».proof.Proof.WalkBase

set_option maxRecDepth 16384

noncomputable section

open scoped BigOperators

namespace Cert.KernelIdeal.Walk

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The source indices: the edges' sources followed by the self loops. -/
theorem s_v5 : W3 m ρ c (Proc.devRef .tc main_v5) = Cert.ReferenceIdeal.ReadP.val_main_v14 (F := Ideal) (m ((c : Thread nD τ).loc main_arg2)) := by
  show StableHlo.after hostOps1 (W2 m ρ c) (Proc.devRef .tc main_v5) = _
  simp only [hostOps1]
  after_results_simp
  finish_results
  rw [w2_arg2 m ρ c]
  rfl

/-- The destination indices: the edges' destinations followed by the self loops. -/
theorem s_v8 : W3 m ρ c (Proc.devRef .tc main_v8) = Cert.ReferenceIdeal.ReadP.val_main_v17 (F := Ideal) (m ((c : Thread nD τ).loc main_arg2)) := by
  show StableHlo.after hostOps1 (W2 m ρ c) (Proc.devRef .tc main_v8) = _
  simp only [hostOps1]
  after_results_simp
  finish_results
  rw [w2_arg2 m ρ c]
  rfl

/-- Where the degree is positive. -/
theorem s_v14 : W3 m ρ c (Proc.devRef .tc main_v14) = Cert.ReferenceIdeal.ReadP.val_main_v23 (F := Ideal) (m ((c : Thread nD τ).loc main_arg2)) := by
  show StableHlo.after hostOps1 (W2 m ρ c) (Proc.devRef .tc main_v14) = _
  simp only [hostOps1]
  after_results_simp
  finish_results
  rw [w2_arg2 m ρ c]
  rfl

/-- The reciprocal square root of the degree, floored at the small constant. -/
theorem s_v17 : W3 m ρ c (Proc.devRef .tc main_v17) = Cert.ReferenceIdeal.ReadP.val_main_v26 (F := Ideal) (m ((c : Thread nD τ).loc main_arg2)) := by
  show StableHlo.after hostOps1 (W2 m ρ c) (Proc.devRef .tc main_v17) = _
  simp only [hostOps1]
  after_results_simp
  finish_results
  rw [w2_arg2 m ρ c]
  rfl

end Cert.KernelIdeal.Walk

end
-- ==== Proof.WalkHost1b.lean ====
/-
  Walking the memory through the program: from the first launch to the second.

  From the vectors of the first stretch the host forms the degree's inverse square root with zero where the degree is zero (a
  select inside a called function), the edge weights dis[src]·dis[dst], and the first aggregation: gather the node features at
  the sources, scale by the weights, scatter-add at the destinations.  The reference does the same by the same operations, so
  each buffer is the reference's own stage.

  How the equations are checked.  A stretch is evaluated over the previous boundary's contents held as ONE unknown valuation
  W, with the few buffers it reads known by equations; the reference's stage is opened down to the same buffers' stages,
  which are then replaced by variables, and the two sides are the same operations over those variables.  (A called
  function's operations carry transports of a value along "this buffer has this type"; under them the select and the zero
  vector are rewritten by two small lemmas rather than compared in one step.)
-/
import proofs.«175389_j20237885899323_2_alg».proof.Proof.WalkHost1a

set_option maxRecDepth 16384

noncomputable section

open scoped BigOperators

namespace Cert.KernelIdeal.Walk

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The zero scalar the select's call takes. -/
theorem s_cst_3 : W3 m ρ c (Proc.devRef .tc main_cst_3) = Cert.ReferenceIdeal.ReadP.val_main_cst_3 (F := Ideal) := by
  show StableHlo.after hostOps1 (W2 m ρ c) (Proc.devRef .tc main_cst_3) = _
  simp only [hostOps1]
  after_results_simp
  rfl

/-- Under the called function's transports, the result of the select is the select. -/
theorem call_select_out (p : (⟨S100000, .i1⟩ : BufTy).Contents (Elt Ideal)) (r z : (⟨S100000, .f32⟩ : BufTy).Contents (Elt Ideal)) :
    (StableHlo.TRef.of (T := ⟨S100000, .f32⟩) main_v18).toBuf (Val := Elt Ideal) (select p r z) = select p r z := rfl

/-- Under the called function's transports, the select of the operands is the select. -/
theorem call_select_in (p : (⟨S100000, .i1⟩ : BufTy).Contents (Elt Ideal)) (r z : (⟨S100000, .f32⟩ : BufTy).Contents (Elt Ideal)) :
    select ((StableHlo.TRef.of (T := ⟨S100000, .i1⟩) main_v14).ofBuf (Val := Elt Ideal) p) ((StableHlo.TRef.of (T := ⟨S100000, .f32⟩) main_v17).ofBuf (Val := Elt Ideal) r) z
      = select p r z := rfl

/-- The called function's zero vector is the reference's. -/
theorem call_zero :
    (StableHlo.TRef.of (T := ⟨S100000, .f32⟩) main_call0_v1).ofBuf (Val := Elt Ideal) ((StableHlo.TRef.of (T := ⟨S100000, .f32⟩) main_call0_v1).toBuf (Val := Elt Ideal)
      (broadcastInDim S100000 ![] bcast_S_S100000
        ((StableHlo.TRef.of (T := ⟨S_, .f32⟩) main_call0_v0).ofBuf (Val := Elt Ideal) ((StableHlo.TRef.of (T := ⟨S_, .f32⟩) main_call0_v0).toBuf (Val := Elt Ideal)
          (id ((StableHlo.TRef.of (T := ⟨S_, .f32⟩) main_cst_3).ofBuf (Val := Elt Ideal) (Cert.ReferenceIdeal.ReadP.val_main_cst_3 (F := Ideal))))))))
      = Cert.ReferenceIdeal.ReadP.val_main_call2_v1 (F := Ideal) := rfl

/-- The degree's inverse square root, zero where the degree is zero. -/
theorem s_v18 : W4 m ρ c (Proc.devRef .tc main_v18) = Cert.ReferenceIdeal.ReadP.val_main_v27 (F := Ideal) (m ((c : Thread nD τ).loc main_arg2)) := by
  show StableHlo.after hostOps1_1 (W3 m ρ c) (Proc.devRef .tc main_v18) = _
  have h14 := s_v14 m ρ c
  have h17 := s_v17 m ρ c
  have hc3 := s_cst_3 m ρ c
  generalize W3 m ρ c = W at h14 h17 hc3 ⊢
  simp only [hostOps1_1]
  after_results_simp
  rw [h14, h17, hc3]
  unfold Cert.ReferenceIdeal.ReadP.val_main_v27
  generalize Cert.ReferenceIdeal.ReadP.val_main_v23 (F := Ideal) (m ((c : Thread nD τ).loc main_arg2)) = p
  generalize Cert.ReferenceIdeal.ReadP.val_main_v26 (F := Ideal) (m ((c : Thread nD τ).loc main_arg2)) = r
  exact (call_select_out p _ _).trans ((call_select_in p r _).trans (congrArg (select p r) call_zero))

theorem w4_v5 : W4 m ρ c (Proc.devRef .tc main_v5) = Cert.ReferenceIdeal.ReadP.val_main_v14 (F := Ideal) (m ((c : Thread nD τ).loc main_arg2)) :=
  (by skip_stretch : W4 m ρ c (Proc.devRef .tc main_v5) = W3 m ρ c (Proc.devRef .tc main_v5)).trans (s_v5 m ρ c)
theorem w4_v8 : W4 m ρ c (Proc.devRef .tc main_v8) = Cert.ReferenceIdeal.ReadP.val_main_v17 (F := Ideal) (m ((c : Thread nD τ).loc main_arg2)) :=
  (by skip_stretch : W4 m ρ c (Proc.devRef .tc main_v8) = W3 m ρ c (Proc.devRef .tc main_v8)).trans (s_v8 m ρ c)
theorem w4_v1 : W4 m ρ c (Proc.devRef .tc main_v1)
    = Cert.ReferenceIdeal.ReadP.val_main_v10 (F := Ideal) (m ((c : Thread nD τ).loc main_arg0)) (m ((c : Thread nD τ).loc main_arg4)) (m ((c : Thread nD τ).loc main_arg5)) (m ((c : Thread nD τ).loc main_arg8)) :=
  (by skip_stretch : W4 m ρ c (Proc.devRef .tc main_v1) = W3 m ρ c (Proc.devRef .tc main_v1)).trans ((by skip_stretch : W3 m ρ c (Proc.devRef .tc main_v1) = W2 m ρ c (Proc.devRef .tc main_v1)).trans (e1 m ρ c))

/-- The edge weights dis[src]·dis[dst]. -/
theorem s_v33 : W5 m ρ c (Proc.devRef .tc main_v33) = Cert.ReferenceIdeal.ReadP.val_main_v42 (F := Ideal) (m ((c : Thread nD τ).loc main_arg2)) := by
  show StableHlo.after hostOps1_2 (W4 m ρ c) (Proc.devRef .tc main_v33) = _
  have h5 := w4_v5 m ρ c
  have h8 := w4_v8 m ρ c
  have h18 := s_v18 m ρ c
  generalize W4 m ρ c = W at h5 h8 h18 ⊢
  simp only [hostOps1_2]
  after_results_simp
  rw [h5, h8, h18]
  unfold Cert.ReferenceIdeal.ReadP.val_main_v42 Cert.ReferenceIdeal.ReadP.val_main_v41 Cert.ReferenceIdeal.ReadP.val_main_v40 Cert.ReferenceIdeal.ReadP.val_main_v39 Cert.ReferenceIdeal.ReadP.val_main_v38 Cert.ReferenceIdeal.ReadP.val_main_v37 Cert.ReferenceIdeal.ReadP.val_main_v36 Cert.ReferenceIdeal.ReadP.val_main_v35 Cert.ReferenceIdeal.ReadP.val_main_c_6 Cert.ReferenceIdeal.ReadP.val_main_c_5 Cert.ReferenceIdeal.ReadP.val_main_v34 Cert.ReferenceIdeal.ReadP.val_main_v33 Cert.ReferenceIdeal.ReadP.val_main_v32 Cert.ReferenceIdeal.ReadP.val_main_v31 Cert.ReferenceIdeal.ReadP.val_main_v30 Cert.ReferenceIdeal.ReadP.val_main_v29 Cert.ReferenceIdeal.ReadP.val_main_v28 Cert.ReferenceIdeal.ReadP.val_main_c_4 Cert.ReferenceIdeal.ReadP.val_main_c
  generalize Cert.ReferenceIdeal.ReadP.val_main_v14 (F := Ideal) (m ((c : Thread nD τ).loc main_arg2)) = src
  generalize Cert.ReferenceIdeal.ReadP.val_main_v17 (F := Ideal) (m ((c : Thread nD τ).loc main_arg2)) = dst
  generalize Cert.ReferenceIdeal.ReadP.val_main_v27 (F := Ideal) (m ((c : Thread nD τ).loc main_arg2)) = dis
  rfl

/-- E2: the first aggregation. -/
theorem e2 : W5 m ρ c (Proc.devRef .tc main_v46)
    = Cert.ReferenceIdeal.ReadP.val_main_v55 (F := Ideal) (m ((c : Thread nD τ).loc main_arg0)) (m ((c : Thread nD τ).loc main_arg2)) (m ((c : Thread nD τ).loc main_arg4)) (m ((c : Thread nD τ).loc main_arg5)) (m ((c : Thread nD τ).loc main_arg8)) := by
  show StableHlo.after hostOps1_2 (W4 m ρ c) (Proc.devRef .tc main_v46) = _
  have h5 := w4_v5 m ρ c
  have h8 := w4_v8 m ρ c
  have h18 := s_v18 m ρ c
  have h1 := w4_v1 m ρ c
  generalize W4 m ρ c = W at h5 h8 h18 h1 ⊢
  simp only [hostOps1_2]
  after_results_simp
  rw [h5, h8, h18, h1]
  unfold Cert.ReferenceIdeal.ReadP.val_main_v55 Cert.ReferenceIdeal.ReadP.val_main_v54 Cert.ReferenceIdeal.ReadP.val_main_v53 Cert.ReferenceIdeal.ReadP.val_main_cst_9 Cert.ReferenceIdeal.ReadP.val_main_v52 Cert.ReferenceIdeal.ReadP.val_main_v51 Cert.ReferenceIdeal.ReadP.val_main_v50 Cert.ReferenceIdeal.ReadP.val_main_v49 Cert.ReferenceIdeal.ReadP.val_main_v48 Cert.ReferenceIdeal.ReadP.val_main_v47 Cert.ReferenceIdeal.ReadP.val_main_v46 Cert.ReferenceIdeal.ReadP.val_main_v45 Cert.ReferenceIdeal.ReadP.val_main_v44 Cert.ReferenceIdeal.ReadP.val_main_v43 Cert.ReferenceIdeal.ReadP.val_main_c_8 Cert.ReferenceIdeal.ReadP.val_main_c_7 Cert.ReferenceIdeal.ReadP.val_main_v42 Cert.ReferenceIdeal.ReadP.val_main_v41 Cert.ReferenceIdeal.ReadP.val_main_v40 Cert.ReferenceIdeal.ReadP.val_main_v39 Cert.ReferenceIdeal.ReadP.val_main_v38 Cert.ReferenceIdeal.ReadP.val_main_v37 Cert.ReferenceIdeal.ReadP.val_main_v36 Cert.ReferenceIdeal.ReadP.val_main_v35 Cert.ReferenceIdeal.ReadP.val_main_c_6 Cert.ReferenceIdeal.ReadP.val_main_c_5 Cert.ReferenceIdeal.ReadP.val_main_v34 Cert.ReferenceIdeal.ReadP.val_main_v33 Cert.ReferenceIdeal.ReadP.val_main_v32 Cert.ReferenceIdeal.ReadP.val_main_v31 Cert.ReferenceIdeal.ReadP.val_main_v30 Cert.ReferenceIdeal.ReadP.val_main_v29 Cert.ReferenceIdeal.ReadP.val_main_v28 Cert.ReferenceIdeal.ReadP.val_main_c_4 Cert.ReferenceIdeal.ReadP.val_main_c
  generalize Cert.ReferenceIdeal.ReadP.val_main_v14 (F := Ideal) (m ((c : Thread nD τ).loc main_arg2)) = src
  generalize Cert.ReferenceIdeal.ReadP.val_main_v17 (F := Ideal) (m ((c : Thread nD τ).loc main_arg2)) = dst
  generalize Cert.ReferenceIdeal.ReadP.val_main_v27 (F := Ideal) (m ((c : Thread nD τ).loc main_arg2)) = dis
  generalize Cert.ReferenceIdeal.ReadP.val_main_v10 (F := Ideal) (m ((c : Thread nD τ).loc main_arg0)) (m ((c : Thread nD τ).loc main_arg4)) (m ((c : Thread nD τ).loc main_arg5)) (m ((c : Thread nD τ).loc main_arg8)) = xw
  rfl

end Cert.KernelIdeal.Walk

end
-- ==== Proof.WalkMid.lean ====
/-
  Walking the memory through the program: the second launch.

  The second launch finds the first aggregation (the reference's stage), the first layer's bias recast to a row, and the
  second weight matrix as launched.  Joining the launch's array (`Region1.array`) with the reference's stage read at an
  element (`DenseStages.v60_at`): after the second launch, relu(agg + b1)·W2 IS the reference's stage.
-/
import proofs.«175389_j20237885899323_2_alg».proof.Proof.WalkHost1b

set_option maxRecDepth 16384

noncomputable section

open scoped BigOperators

namespace Cert.KernelIdeal.Walk

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg) (c : Dev nD)

theorem w4_arg9 : W4 m ρ c (Proc.devRef .tc main_arg9) = (m ((c : Thread nD τ).loc main_arg9)) :=
  ((by skip_stretch : W4 m ρ c (Proc.devRef .tc main_arg9) = W3 m ρ c (Proc.devRef .tc main_arg9)).trans ((by skip_stretch : W3 m ρ c (Proc.devRef .tc main_arg9) = W2 m ρ c (Proc.devRef .tc main_arg9)).trans ((W2_of_ne m ρ c main_arg9 (by decide)).trans ((by skip_stretch : W1 m ρ c (Proc.devRef .tc main_arg9) = W0 m ρ c (Proc.devRef .tc main_arg9)).trans rfl))))

theorem w5_arg10 : W5 m ρ c (Proc.devRef .tc main_arg10) = (m ((c : Thread nD τ).loc main_arg10)) :=
  ((by skip_stretch : W5 m ρ c (Proc.devRef .tc main_arg10) = W4 m ρ c (Proc.devRef .tc main_arg10)).trans ((by skip_stretch : W4 m ρ c (Proc.devRef .tc main_arg10) = W3 m ρ c (Proc.devRef .tc main_arg10)).trans ((by skip_stretch : W3 m ρ c (Proc.devRef .tc main_arg10) = W2 m ρ c (Proc.devRef .tc main_arg10)).trans ((W2_of_ne m ρ c main_arg10 (by decide)).trans ((by skip_stretch : W1 m ρ c (Proc.devRef .tc main_arg10) = W0 m ρ c (Proc.devRef .tc main_arg10)).trans rfl)))))

/-- The first layer's bias, recast [64] → [1, 64] by the host just before the launch. -/
theorem w5_v47 : W5 m ρ c (Proc.devRef .tc main_v47) = shapeCast S1x64 (m ((c : Thread nD τ).loc main_arg9)) shapeCasts_S64_S1x64 := by
  show StableHlo.after hostOps1_2 (W4 m ρ c) (Proc.devRef .tc main_v47) = _
  have h9 := w4_arg9 m ρ c
  generalize W4 m ρ c = W at h9 ⊢
  simp only [hostOps1_2]
  after_results_simp
  rw [h9]
  rfl

/-- E3: after the second launch, relu(agg + b1)·W2 is the reference's stage. -/
theorem e3 : W6 m ρ c (Proc.devRef .tc main_v48) = Cert.ReferenceIdeal.ReadP.val_main_v60 (F := Ideal) (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) := by
  refine (W6_arr m ρ c 3).trans ((Region1.array (V5 m ρ) c).trans ?_)
  funext i
  refine Eq.trans ?_ (((congrArg (Cert.ReferenceIdeal.ReadP.val_main_v60 (F := Ideal) (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10))) (eq_ix2 i)).trans
      (Cert.ReferenceIdeal.DenseStages.v60_at _ _ _ _ _ _ _ (i 0) (i 1))).symm)
  unfold Region1.G
  refine Dense.layer_congr _ _ _ _ _ _ (i 0) (i 0) (i 1) (i 1) ?_ ?_ ?_
  · intro k; exact congrFun (e2 m ρ c) _
  · intro k
    show W5 m ρ c (Proc.devRef .tc main_v47) (ix2 (0 : Fin 1) k) = (m ((c : Thread nD τ).loc main_arg9)) (ix1 k)
    rw [w5_v47]
    exact shapeCast_a_1a_apply _ _ 0 k
  · intro k; exact congrFun (w5_arg10 m ρ c) _

end Cert.KernelIdeal.Walk

end
-- ==== Proof.RefCopies.lean ====
/-
  The reference computes the graph's normalisation twice.

  Each of its two graph-convolution layers rebuilds, from the same edge list, the source and destination indices, the degree's
  inverse square root and the edge weights.  The second copies are the same operations of the same argument as the first, so
  they are the same vectors.  (The kernel builds them once and uses them in both layers; these equations are what lets its one
  copy stand for either of the reference's.)
-/
import proofs.«175389_j20237885899323_2_alg».proof.Proof.ReferenceRead

noncomputable section

namespace Cert.ReferenceIdeal.Copies

open Idealize.ShloMosaic Cert.ReferenceIdeal Cert.ReferenceIdeal.ReadP

variable (x2 : IVec S2x3200000 32)

/-- The second layer's source indices are the first's. -/
theorem src_again : val_main_v64 (F := Ideal) x2 = val_main_v14 (F := Ideal) x2 := by
  unfold val_main_v64 val_main_v63 val_main_v62 val_main_v61
  unfold val_main_v14 val_main_v13 val_main_v12 val_main_v11
  rfl

/-- The second layer's destination indices are the first's. -/
theorem dst_again : val_main_v67 (F := Ideal) x2 = val_main_v17 (F := Ideal) x2 := by
  unfold val_main_v67 val_main_v66 val_main_v65 val_main_v61
  unfold val_main_v17 val_main_v16 val_main_v15 val_main_v11
  rfl

/-- The second layer's inverse square root of the degree is the first's. -/
theorem dis_again : val_main_v77 (F := Ideal) x2 = val_main_v27 (F := Ideal) x2 := by
  unfold val_main_v77 val_main_v76 val_main_v75 val_main_v74 val_main_cst_13 val_main_v73 val_main_v72 val_main_cst_12 val_main_v71 val_main_v70 val_main_v69 val_main_cst_11 val_main_v68 val_main_cst_10 val_main_call4_v1 val_main_call4_v0 val_main_cst_14
  unfold val_main_v27 val_main_v26 val_main_v25 val_main_v24 val_main_cst_2 val_main_v23 val_main_v22 val_main_cst_1 val_main_v21 val_main_v20 val_main_v19 val_main_cst_0 val_main_v18 val_main_cst val_main_call2_v1 val_main_call2_v0 val_main_cst_3
  rw [dst_again]

/-- The second layer's edge weights are the first's. -/
theorem norm_again : val_main_v92 (F := Ideal) x2 = val_main_v42 (F := Ideal) x2 := by
  unfold val_main_v92 val_main_v91 val_main_v90 val_main_v89 val_main_v88 val_main_v87 val_main_v86 val_main_v85 val_main_c_18 val_main_c_17 val_main_v84 val_main_v83 val_main_v82 val_main_v81 val_main_v80 val_main_v79 val_main_v78 val_main_c_16 val_main_c_15
  unfold val_main_v42 val_main_v41 val_main_v40 val_main_v39 val_main_v38 val_main_v37 val_main_v36 val_main_v35 val_main_c_6 val_main_c_5 val_main_v34 val_main_v33 val_main_v32 val_main_v31 val_main_v30 val_main_v29 val_main_v28 val_main_c_4 val_main_c
  rw [src_again, dst_again, dis_again]

end Cert.ReferenceIdeal.Copies

end
-- ==== Proof.WalkHost2.lean ====
/-
  Walking the memory through the program: from the second launch to the third.

  The host aggregates again — the second launch's features gathered at the sources, scaled by the SAME edge weights, and
  scatter-added at the destinations —, adds the second layer's bias, rectifies (inside a called function), and takes the mean
  over each graph: a scatter-add of the node features by graph id, divided by the count of nodes floored at one.  The reference
  does the same by the same operations, except that it rebuilt the indices and weights for this layer; its second copies are
  its first (`Copies`), which are what the kernel kept.  So each buffer is the reference's own stage.
-/
import proofs.«175389_j20237885899323_2_alg».proof.Proof.WalkMid
import proofs.«175389_j20237885899323_2_alg».proof.Proof.RefCopies

set_option maxRecDepth 16384

noncomputable section

open scoped BigOperators

namespace Cert.KernelIdeal.Walk

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## What the second launch leaves alone: the indices and the weights, as the reference's second copies -/

theorem w6_v5 : W6 m ρ c (Proc.devRef .tc main_v5) = Cert.ReferenceIdeal.ReadP.val_main_v64 (F := Ideal) (m ((c : Thread nD τ).loc main_arg2)) :=
  (W6_of_ne m ρ c main_v5 (by decide)).trans
    ((by skip_stretch : W5 m ρ c (Proc.devRef .tc main_v5) = W4 m ρ c (Proc.devRef .tc main_v5)).trans
      ((w4_v5 m ρ c).trans (Cert.ReferenceIdeal.Copies.src_again _).symm))
theorem w6_v8 : W6 m ρ c (Proc.devRef .tc main_v8) = Cert.ReferenceIdeal.ReadP.val_main_v67 (F := Ideal) (m ((c : Thread nD τ).loc main_arg2)) :=
  (W6_of_ne m ρ c main_v8 (by decide)).trans
    ((by skip_stretch : W5 m ρ c (Proc.devRef .tc main_v8) = W4 m ρ c (Proc.devRef .tc main_v8)).trans
      ((w4_v8 m ρ c).trans (Cert.ReferenceIdeal.Copies.dst_again _).symm))
theorem w6_v33 : W6 m ρ c (Proc.devRef .tc main_v33) = Cert.ReferenceIdeal.ReadP.val_main_v92 (F := Ideal) (m ((c : Thread nD τ).loc main_arg2)) :=
  (W6_of_ne m ρ c main_v33 (by decide)).trans ((s_v33 m ρ c).trans (Cert.ReferenceIdeal.Copies.norm_again _).symm)
theorem w6_arg11 : W6 m ρ c (Proc.devRef .tc main_arg11) = (m ((c : Thread nD τ).loc main_arg11)) :=
  ((W6_of_ne m ρ c main_arg11 (by decide)).trans ((by skip_stretch : W5 m ρ c (Proc.devRef .tc main_arg11) = W4 m ρ c (Proc.devRef .tc main_arg11)).trans ((by skip_stretch : W4 m ρ c (Proc.devRef .tc main_arg11) = W3 m ρ c (Proc.devRef .tc main_arg11)).trans ((by skip_stretch : W3 m ρ c (Proc.devRef .tc main_arg11) = W2 m ρ c (Proc.devRef .tc main_arg11)).trans ((W2_of_ne m ρ c main_arg11 (by decide)).trans ((by skip_stretch : W1 m ρ c (Proc.devRef .tc main_arg11) = W0 m ρ c (Proc.devRef .tc main_arg11)).trans rfl))))))

theorem w8_arg3 : W8 m ρ c (Proc.devRef .tc main_arg3) = (m ((c : Thread nD τ).loc main_arg3)) :=
  ((by skip_stretch : W8 m ρ c (Proc.devRef .tc main_arg3) = W7 m ρ c (Proc.devRef .tc main_arg3)).trans ((by skip_stretch : W7 m ρ c (Proc.devRef .tc main_arg3) = W6 m ρ c (Proc.devRef .tc main_arg3)).trans ((W6_of_ne m ρ c main_arg3 (by decide)).trans ((by skip_stretch : W5 m ρ c (Proc.devRef .tc main_arg3) = W4 m ρ c (Proc.devRef .tc main_arg3)).trans ((by skip_stretch : W4 m ρ c (Proc.devRef .tc main_arg3) = W3 m ρ c (Proc.devRef .tc main_arg3)).trans ((by skip_stretch : W3 m ρ c (Proc.devRef .tc main_arg3) = W2 m ρ c (Proc.devRef .tc main_arg3)).trans ((W2_of_ne m ρ c main_arg3 (by decide)).trans ((by skip_stretch : W1 m ρ c (Proc.devRef .tc main_arg3) = W0 m ρ c (Proc.devRef .tc main_arg3)).trans rfl))))))))

/-! ## The second aggregation plus the bias -/

theorem s_v64 : W7 m ρ c (Proc.devRef .tc main_v64) = Cert.ReferenceIdeal.ReadP.val_main_v108 (F := Ideal) (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) := by
  show StableHlo.after hostOps2 (W6 m ρ c) (Proc.devRef .tc main_v64) = _
  have h5 := w6_v5 m ρ c
  have h8 := w6_v8 m ρ c
  have h33 := w6_v33 m ρ c
  have h48 := e3 m ρ c
  have h11 := w6_arg11 m ρ c
  generalize W6 m ρ c = W at h5 h8 h33 h48 h11 ⊢
  simp only [hostOps2]
  after_results_simp
  rw [h5, h8, h33, h48, h11]
  unfold Cert.ReferenceIdeal.ReadP.val_main_v108 Cert.ReferenceIdeal.ReadP.val_main_v107 Cert.ReferenceIdeal.ReadP.val_main_v106 Cert.ReferenceIdeal.ReadP.val_main_v105 Cert.ReferenceIdeal.ReadP.val_main_v104 Cert.ReferenceIdeal.ReadP.val_main_v103 Cert.ReferenceIdeal.ReadP.val_main_cst_21 Cert.ReferenceIdeal.ReadP.val_main_v102 Cert.ReferenceIdeal.ReadP.val_main_v101 Cert.ReferenceIdeal.ReadP.val_main_v100 Cert.ReferenceIdeal.ReadP.val_main_v99 Cert.ReferenceIdeal.ReadP.val_main_v98 Cert.ReferenceIdeal.ReadP.val_main_v97 Cert.ReferenceIdeal.ReadP.val_main_v96 Cert.ReferenceIdeal.ReadP.val_main_v95 Cert.ReferenceIdeal.ReadP.val_main_v94 Cert.ReferenceIdeal.ReadP.val_main_v93 Cert.ReferenceIdeal.ReadP.val_main_c_20 Cert.ReferenceIdeal.ReadP.val_main_c_19
  generalize Cert.ReferenceIdeal.ReadP.val_main_v64 (F := Ideal) (m ((c : Thread nD τ).loc main_arg2)) = src
  generalize Cert.ReferenceIdeal.ReadP.val_main_v67 (F := Ideal) (m ((c : Thread nD τ).loc main_arg2)) = dst
  generalize Cert.ReferenceIdeal.ReadP.val_main_v92 (F := Ideal) (m ((c : Thread nD τ).loc main_arg2)) = nrm
  generalize Cert.ReferenceIdeal.ReadP.val_main_v60 (F := Ideal) (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) = xw
  rfl

/-! ## The rectifier, inside a called function -/

/-- Under the called function's transports, the result of the maximum is the maximum. -/
theorem call_relu_out (a z : FVec Ideal S100000x64 .f32) :
    (StableHlo.TRef.of (T := ⟨S100000x64, .f32⟩) main_v65).toBuf (Val := Elt Ideal) (maximumf (F := Ideal) a z) = maximumf (F := Ideal) a z := rfl

/-- Under the called function's transports, the maximum of the operand is the maximum. -/
theorem call_relu_in (a z : FVec Ideal S100000x64 .f32) :
    maximumf (F := Ideal) ((StableHlo.TRef.of (T := ⟨S100000x64, .f32⟩) main_v64).ofBuf (Val := Elt Ideal) a) z = maximumf (F := Ideal) a z := rfl

/-- The called function's zero array is the reference's. -/
theorem call_relu_zero :
    (StableHlo.TRef.of (T := ⟨S100000x64, .f32⟩) main_call1_v0).ofBuf (Val := Elt Ideal) ((StableHlo.TRef.of (T := ⟨S100000x64, .f32⟩) main_call1_v0).toBuf (Val := Elt Ideal)
      (broadcastInDim S100000x64 ![] bcast_S_S100000x64
        ((StableHlo.TRef.of (T := ⟨S_, .f32⟩) main_call1_cst).ofBuf (Val := Elt Ideal) ((StableHlo.TRef.of (T := ⟨S_, .f32⟩) main_call1_cst).toBuf (Val := Elt Ideal)
          (constant (F := Ideal) S_ .f32 0x00000000#32)))))
      = Cert.ReferenceIdeal.ReadP.val_main_call5_v0 (F := Ideal) := rfl

theorem s_v65 : W8 m ρ c (Proc.devRef .tc main_v65) = Cert.ReferenceIdeal.ReadP.val_main_v109 (F := Ideal) (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) := by
  show StableHlo.after hostOps2_1 (W7 m ρ c) (Proc.devRef .tc main_v65) = _
  have h64 := s_v64 m ρ c
  generalize W7 m ρ c = W at h64 ⊢
  simp only [hostOps2_1]
  after_results_simp
  rw [h64]
  unfold Cert.ReferenceIdeal.ReadP.val_main_v109
  generalize Cert.ReferenceIdeal.ReadP.val_main_v108 (F := Ideal) (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) = a
  exact (call_relu_out a _).trans ((call_relu_in a _).trans (congrArg (maximumf (F := Ideal) a) call_relu_zero))

/-! ## The mean over each graph -/

/-- E4: the pooled features the third launch finds are the reference's stage. -/
theorem e4 : W9 m ρ c (Proc.devRef .tc main_v77) = Cert.ReferenceIdeal.ReadP.val_main_v121 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) := by
  show StableHlo.after hostOps2_2 (W8 m ρ c) (Proc.devRef .tc main_v77) = _
  have h65 := s_v65 m ρ c
  have h3 := w8_arg3 m ρ c
  generalize W8 m ρ c = W at h65 h3 ⊢
  simp only [hostOps2_2]
  after_results_simp
  rw [h65, h3]
  unfold Cert.ReferenceIdeal.ReadP.val_main_v121 Cert.ReferenceIdeal.ReadP.val_main_v120 Cert.ReferenceIdeal.ReadP.val_main_v119 Cert.ReferenceIdeal.ReadP.val_main_v118 Cert.ReferenceIdeal.ReadP.val_main_v117 Cert.ReferenceIdeal.ReadP.val_main_cst_25 Cert.ReferenceIdeal.ReadP.val_main_v116 Cert.ReferenceIdeal.ReadP.val_main_v115 Cert.ReferenceIdeal.ReadP.val_main_v114 Cert.ReferenceIdeal.ReadP.val_main_cst_24 Cert.ReferenceIdeal.ReadP.val_main_v113 Cert.ReferenceIdeal.ReadP.val_main_cst_23 Cert.ReferenceIdeal.ReadP.val_main_v112 Cert.ReferenceIdeal.ReadP.val_main_v111 Cert.ReferenceIdeal.ReadP.val_main_v110 Cert.ReferenceIdeal.ReadP.val_main_cst_22
  generalize Cert.ReferenceIdeal.ReadP.val_main_v109 (F := Ideal) (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) = h
  rfl

end Cert.KernelIdeal.Walk

end
-- ==== Proof.WalkEnd.lean ====
/-
  Walking the memory through the program: the third launch, and the result.

  The third launch finds the pooled features (the reference's stage), the head's two weight matrices as launched, and its two
  biases recast to rows.  Joining the launch's array (`Region2.array`) with the reference's stage read at an element
  (`DenseStages.v130_at`): the result buffer at the last boundary IS the reference's result, as a function of the arguments.
-/
import proofs.«175389_j20237885899323_2_alg».proof.Proof.WalkHost2

set_option maxRecDepth 16384

noncomputable section

open scoped BigOperators

namespace Cert.KernelIdeal.Walk

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg) (c : Dev nD)

theorem w9_arg12 : W9 m ρ c (Proc.devRef .tc main_arg12) = (m ((c : Thread nD τ).loc main_arg12)) :=
  ((by skip_stretch : W9 m ρ c (Proc.devRef .tc main_arg12) = W8 m ρ c (Proc.devRef .tc main_arg12)).trans ((by skip_stretch : W8 m ρ c (Proc.devRef .tc main_arg12) = W7 m ρ c (Proc.devRef .tc main_arg12)).trans ((by skip_stretch : W7 m ρ c (Proc.devRef .tc main_arg12) = W6 m ρ c (Proc.devRef .tc main_arg12)).trans ((W6_of_ne m ρ c main_arg12 (by decide)).trans ((by skip_stretch : W5 m ρ c (Proc.devRef .tc main_arg12) = W4 m ρ c (Proc.devRef .tc main_arg12)).trans ((by skip_stretch : W4 m ρ c (Proc.devRef .tc main_arg12) = W3 m ρ c (Proc.devRef .tc main_arg12)).trans ((by skip_stretch : W3 m ρ c (Proc.devRef .tc main_arg12) = W2 m ρ c (Proc.devRef .tc main_arg12)).trans ((W2_of_ne m ρ c main_arg12 (by decide)).trans ((by skip_stretch : W1 m ρ c (Proc.devRef .tc main_arg12) = W0 m ρ c (Proc.devRef .tc main_arg12)).trans rfl)))))))))

theorem w9_arg14 : W9 m ρ c (Proc.devRef .tc main_arg14) = (m ((c : Thread nD τ).loc main_arg14)) :=
  ((by skip_stretch : W9 m ρ c (Proc.devRef .tc main_arg14) = W8 m ρ c (Proc.devRef .tc main_arg14)).trans ((by skip_stretch : W8 m ρ c (Proc.devRef .tc main_arg14) = W7 m ρ c (Proc.devRef .tc main_arg14)).trans ((by skip_stretch : W7 m ρ c (Proc.devRef .tc main_arg14) = W6 m ρ c (Proc.devRef .tc main_arg14)).trans ((W6_of_ne m ρ c main_arg14 (by decide)).trans ((by skip_stretch : W5 m ρ c (Proc.devRef .tc main_arg14) = W4 m ρ c (Proc.devRef .tc main_arg14)).trans ((by skip_stretch : W4 m ρ c (Proc.devRef .tc main_arg14) = W3 m ρ c (Proc.devRef .tc main_arg14)).trans ((by skip_stretch : W3 m ρ c (Proc.devRef .tc main_arg14) = W2 m ρ c (Proc.devRef .tc main_arg14)).trans ((W2_of_ne m ρ c main_arg14 (by decide)).trans ((by skip_stretch : W1 m ρ c (Proc.devRef .tc main_arg14) = W0 m ρ c (Proc.devRef .tc main_arg14)).trans rfl)))))))))

theorem w8_arg13 : W8 m ρ c (Proc.devRef .tc main_arg13) = (m ((c : Thread nD τ).loc main_arg13)) :=
  ((by skip_stretch : W8 m ρ c (Proc.devRef .tc main_arg13) = W7 m ρ c (Proc.devRef .tc main_arg13)).trans ((by skip_stretch : W7 m ρ c (Proc.devRef .tc main_arg13) = W6 m ρ c (Proc.devRef .tc main_arg13)).trans ((W6_of_ne m ρ c main_arg13 (by decide)).trans ((by skip_stretch : W5 m ρ c (Proc.devRef .tc main_arg13) = W4 m ρ c (Proc.devRef .tc main_arg13)).trans ((by skip_stretch : W4 m ρ c (Proc.devRef .tc main_arg13) = W3 m ρ c (Proc.devRef .tc main_arg13)).trans ((by skip_stretch : W3 m ρ c (Proc.devRef .tc main_arg13) = W2 m ρ c (Proc.devRef .tc main_arg13)).trans ((W2_of_ne m ρ c main_arg13 (by decide)).trans ((by skip_stretch : W1 m ρ c (Proc.devRef .tc main_arg13) = W0 m ρ c (Proc.devRef .tc main_arg13)).trans rfl))))))))

theorem w8_arg15 : W8 m ρ c (Proc.devRef .tc main_arg15) = (m ((c : Thread nD τ).loc main_arg15)) :=
  ((by skip_stretch : W8 m ρ c (Proc.devRef .tc main_arg15) = W7 m ρ c (Proc.devRef .tc main_arg15)).trans ((by skip_stretch : W7 m ρ c (Proc.devRef .tc main_arg15) = W6 m ρ c (Proc.devRef .tc main_arg15)).trans ((W6_of_ne m ρ c main_arg15 (by decide)).trans ((by skip_stretch : W5 m ρ c (Proc.devRef .tc main_arg15) = W4 m ρ c (Proc.devRef .tc main_arg15)).trans ((by skip_stretch : W4 m ρ c (Proc.devRef .tc main_arg15) = W3 m ρ c (Proc.devRef .tc main_arg15)).trans ((by skip_stretch : W3 m ρ c (Proc.devRef .tc main_arg15) = W2 m ρ c (Proc.devRef .tc main_arg15)).trans ((W2_of_ne m ρ c main_arg15 (by decide)).trans ((by skip_stretch : W1 m ρ c (Proc.devRef .tc main_arg15) = W0 m ρ c (Proc.devRef .tc main_arg15)).trans rfl))))))))

/-- The head's hidden bias, recast [32] → [1, 32] by the host just before the launch. -/
theorem w9_v78 : W9 m ρ c (Proc.devRef .tc main_v78) = shapeCast S1x32 (m ((c : Thread nD τ).loc main_arg13)) shapeCasts_S32_S1x32 := by
  show StableHlo.after hostOps2_2 (W8 m ρ c) (Proc.devRef .tc main_v78) = _
  have h13 := w8_arg13 m ρ c
  generalize W8 m ρ c = W at h13 ⊢
  simp only [hostOps2_2]
  after_results_simp
  rw [h13]
  rfl

/-- The head's output bias, recast [1] → [1, 1]. -/
theorem w9_v79 : W9 m ρ c (Proc.devRef .tc main_v79) = shapeCast S1x1 (m ((c : Thread nD τ).loc main_arg15)) shapeCasts_S1_S1x1 := by
  show StableHlo.after hostOps2_2 (W8 m ρ c) (Proc.devRef .tc main_v79) = _
  have h15 := w8_arg15 m ρ c
  generalize W8 m ρ c = W at h15 ⊢
  simp only [hostOps2_2]
  after_results_simp
  rw [h15]
  rfl

/-- E5: the result buffer at the last boundary is the reference's result. -/
theorem e5 : W10 m ρ c (Proc.devRef .tc main_v80) = Cert.ReferenceIdeal.ReadP.val_main_v130 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W10_arr m ρ c 5).trans ((Region2.array (V9 m ρ) c).trans ?_)
  funext i
  refine Eq.trans ?_ (((congrArg (Cert.ReferenceIdeal.ReadP.val_main_v130 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (eq_ix2 i)).trans
      (Cert.ReferenceIdeal.DenseStages.v130_at _ _ _ _ _ _ _ _ _ _ _ _ _ (i 0) (i 1))).symm)
  unfold Region2.G
  refine Dense.head_congr _ _ _ _ _ _ _ _ _ _ (i 0) (i 0) (i 1) (i 1) ?_ ?_ ?_ ?_ ?_
  · intro l; exact congrFun (e4 m ρ c) _
  · intro l k; exact congrFun (w9_arg12 m ρ c) _
  · intro k
    show W9 m ρ c (Proc.devRef .tc main_v78) (ix2 (0 : Fin 1) k) = (m ((c : Thread nD τ).loc main_arg13)) (ix1 k)
    rw [w9_v78]
    exact shapeCast_a_1a_apply _ _ 0 k
  · intro k; exact congrFun (w9_arg14 m ρ c) _
  · show W9 m ρ c (Proc.devRef .tc main_v79) (ix2 (0 : Fin 1) (0 : Fin 1)) = (m ((c : Thread nD τ).loc main_arg15)) (ix1 (0 : Fin 1))
    rw [w9_v79]
    exact shapeCast_a_1a_apply _ _ 0 0

end Cert.KernelIdeal.Walk

end
-- ==== Proof.lean ====
/-
  A two-layer graph convolution network with mean pooling and a two-layer head, as a kernel program and as its reference.

  Both programs compute, from node features x, an edge list, graph ids and weights,

      h0  = relu(x·Wn + bn)                        xw1 = h0·W1
      a1  = Σ_{edges into v} w_e · xw1[src e]       xw2 = relu(a1 + b1)·W2
      a2  = Σ_{edges into v} w_e · xw2[src e]       h   = relu(a2 + b2)
      p   = (Σ_{nodes of g} h) / max(#nodes of g, 1)
      out = relu(p·Wf1 + bf1)·Wf2 + bf2

  with w_e = dis[src e]·dis[dst e] and dis = 1/sqrt(max(deg, ε)) where the degree is positive, else 0 (self loops
  added).  The kernel program computes the three dense pieces (xw1; xw2; out) in launches of matrix-unit kernels, tiled in
  blocks of rows and with operands rounded to a narrower format, and leaves the sparse pieces to the host; the reference
  computes everything on the host, and rebuilds the edge weights for its second layer.  Over the extended reals a change of
  format is the identity, a matrix-unit product into zeros and a host dot_general are the same finite sum, and a tiling by
  rows is a tiling; so the two programs are the SAME composition of the same operations, and no algebraic law — hence no
  finiteness of the inputs — is needed: the precondition is never opened.

  The proof follows that description.  `Dense` states the three dense maps element by element; `KernelPay` and `RefDense`
  read each program's spelling of them at an element; `Region0/1/2` pass from a launch's blocks to its array; `KernelRun`
  keeps the kernel program's result at the last boundary of its run; `WalkBase … WalkEnd` read that boundary back through
  the program, stage by stage, as the reference's own stages; `RefCopies` identifies the reference's two copies of the edge
  weights.  What is left here is to put the two runs side by side.
-/
import proofs.«175389_j20237885899323_2_alg».proof.Defs
import proofs.«175389_j20237885899323_2_alg».proof.Proof.Gen.Kernel
import proofs.«175389_j20237885899323_2_alg».proof.Proof.Gen.Kernel.Skeleton
import proofs.«175389_j20237885899323_2_alg».proof.Proof.Gen.Kernel.Launch
import proofs.«175389_j20237885899323_2_alg».proof.Proof.Gen.Kernel.Points
import proofs.«175389_j20237885899323_2_alg».proof.Proof.Gen.Kernel.Frame
import proofs.«175389_j20237885899323_2_alg».proof.Proof.Gen.KernelIdeal
import proofs.«175389_j20237885899323_2_alg».proof.Proof.Gen.KernelIdeal.Skeleton
import proofs.«175389_j20237885899323_2_alg».proof.Proof.Gen.KernelIdeal.Launch
import proofs.«175389_j20237885899323_2_alg».proof.Proof.Gen.KernelIdeal.Points
import proofs.«175389_j20237885899323_2_alg».proof.Proof.Gen.KernelIdeal.Frame
import proofs.«175389_j20237885899323_2_alg».proof.Proof.Gen.ReferenceIdeal
import proofs.«175389_j20237885899323_2_alg».proof.Proof.Gen.Pre_finite_inputs
import proofs.«175389_j20237885899323_2_alg».proof.Proof.KernelRun
import proofs.«175389_j20237885899323_2_alg».proof.Proof.WalkEnd
import Idealize.ShloMosaic.Adequacy
import Idealize.ShloMosaic.Init

noncomputable section

namespace Cert.Proof

open Idealize.ShloMosaic Idealize.SL.Sem

/-- The kernel program, as printed, runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- The kernel program over the extended reals runs and leaves its arguments alone. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments alone: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The two programs, from memories that agree on the arguments, end with the same result: each ends at the reference's
    last stage of its own arguments (the kernel program by the walk, the reference by its run), and the arguments agree. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.ReferenceIdeal.ReadP.val_main_v130 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun r h c => ⟨(h c).1.trans (Cert.KernelIdeal.Walk.e5 m ρ c), (h c).2⟩) (Cert.KernelIdeal.ResultRun.run m ρ)
  · refine (θ_run Cert.ReferenceIdeal.defs _ _).mono (fun r h c => ⟨(h c).1.trans ((Cert.ReferenceIdeal.ReadP.val_main_v130_eq m' c).trans ?_), (h c).2⟩)
      (Cert.ReferenceIdeal.ValueP.run (F := Ideal) m' ρ')
    obtain ⟨h0, h1, h2, h3, h4, h5, h6, h7, h8, h9, h10, h11, h12, h13, h14, h15⟩ := hagree c
    rw [h0, h2, h3, h4, h5, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
